-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128x10 .f32) (main_arg13 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x10 .f32 := Host.absf main_arg12
  let main_cst_18 : FVec F S_ .f32 := constant S_ .f32 0x7F800000#32
  let main_v50 : FVec F S128x10 .f32 := broadcastInDim S128x10 ![] bcast_S_S128x10 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x1600000 32) (main_arg2 : FVec F S1600000 .f32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 148
  | .vmem => 21
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S50000, .i32⟩
  | 19 => ⟨S1650000, .i32⟩
  | 20 => ⟨S1650000, .i32⟩
  | 21 => ⟨S_, .f32⟩
  | 22 => ⟨S50000, .f32⟩
  | 23 => ⟨S1650000, .f32⟩
  | 24 => ⟨S_, .f32⟩
  | 25 => ⟨S50000, .f32⟩
  | 26 => ⟨S1650000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S_, .i32⟩
  | 46 => ⟨S1650000, .i32⟩
  | 47 => ⟨S1650000, .i1⟩
  | 48 => ⟨S_, .i32⟩
  | 49 => ⟨S1650000, .i32⟩
  | 50 => ⟨S1650000, .i32⟩
  | 51 => ⟨S1650000, .i32⟩
  | 52 => ⟨S1650000x1, .i32⟩
  | 53 => ⟨S1650000, .f32⟩
  | 54 => ⟨S1650000, .f32⟩
  | 55 => ⟨S1650000, .f32⟩
  | 56 => ⟨S50000x128, .bf16⟩
  | 57 => ⟨S128x128, .bf16⟩
  | 58 => ⟨S50000x128, .f32⟩
  | 59 => ⟨S_, .i32⟩
  | 60 => ⟨S1650000, .i32⟩
  | 61 => ⟨S1650000, .i1⟩
  | 62 => ⟨S_, .i32⟩
  | 63 => ⟨S1650000, .i32⟩
  | 64 => ⟨S1650000, .i32⟩
  | 65 => ⟨S1650000, .i32⟩
  | 66 => ⟨S1650000x1, .i32⟩
  | 67 => ⟨S1650000x128, .f32⟩
  | 68 => ⟨S1650000x1, .f32⟩
  | 69 => ⟨S1650000x128, .f32⟩
  | 70 => ⟨S1650000x128, .f32⟩
  | 71 => ⟨S_, .f32⟩
  | 72 => ⟨S50000x128, .f32⟩
  | 73 => ⟨S1650000x1, .i32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .bf16⟩
  | 82 => ⟨S128x128, .bf16⟩
  | 83 => ⟨S50000x128, .f32⟩
  | 84 => ⟨S_, .i32⟩
  | 85 => ⟨S1650000, .i32⟩
  | 86 => ⟨S1650000, .i1⟩
  | 87 => ⟨S_, .i32⟩
  | 88 => ⟨S1650000, .i32⟩
  | 89 => ⟨S1650000, .i32⟩
  | 90 => ⟨S1650000, .i32⟩
  | 91 => ⟨S1650000x1, .i32⟩
  | 92 => ⟨S1650000x128, .f32⟩
  | 93 => ⟨S1650000x1, .f32⟩
  | 94 => ⟨S1650000x128, .f32⟩
  | 95 => ⟨S1650000x128, .f32⟩
  | 96 => ⟨S_, .f32⟩
  | 97 => ⟨S50000x128, .f32⟩
  | 98 => ⟨S1650000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .bf16⟩
  | 107 => ⟨S128x128, .bf16⟩
  | 108 => ⟨S50000x128, .f32⟩
  | 109 => ⟨S_, .i32⟩
  | 110 => ⟨S1650000, .i32⟩
  | 111 => ⟨S1650000, .i1⟩
  | 112 => ⟨S_, .i32⟩
  | 113 => ⟨S1650000, .i32⟩
  | 114 => ⟨S1650000, .i32⟩
  | 115 => ⟨S1650000, .i32⟩
  | 116 => ⟨S1650000x1, .i32⟩
  | 117 => ⟨S1650000x128, .f32⟩
  | 118 => ⟨S1650000x1, .f32⟩
  | 119 => ⟨S1650000x128, .f32⟩
  | 120 => ⟨S1650000x128, .f32⟩
  | 121 => ⟨S_, .f32⟩
  | 122 => ⟨S50000x128, .f32⟩
  | 123 => ⟨S1650000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S256x128, .f32⟩
  | 2 => ⟨S50000x1, .i32⟩
  | 3 => ⟨S256x128, .f32⟩
  | 4 => ⟨S_, .f32⟩
  | 5 => ⟨S50000, .f32⟩
  | 6 => ⟨S_, .f32⟩
  | 7 => ⟨S256, .f32⟩
  | 8 => ⟨S50000x1, .i32⟩
  | 9 => ⟨S256, .f32⟩
  | 10 => ⟨S_, .f32⟩
  | 11 => ⟨S256, .f32⟩
  | 12 => ⟨S256, .f32⟩
  | 13 => ⟨S256x1, .f32⟩
  | 14 => ⟨S256x128, .f32⟩
  | 15 => ⟨S256x128, .f32⟩
  | 16 => ⟨S256x128, .bf16⟩
  | 17 => ⟨S128x128, .bf16⟩
  | 18 => ⟨S128x10, .bf16⟩
  | 19 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S128x128, .bf16⟩
  | .local _ .vmem, ⟨13, _⟩ => ⟨S5000x128, .f32⟩
  | .local _ .vmem, ⟨14, _⟩ => ⟨S5000x128, .f32⟩
  | .local _ .vmem, ⟨15, _⟩ => ⟨S256x128, .bf16⟩
  | .local _ .vmem, ⟨16, _⟩ => ⟨S128x128, .bf16⟩
  | .local _ .vmem, ⟨17, _⟩ => ⟨S128, .f32⟩
  | .local _ .vmem, ⟨18, _⟩ => ⟨S128x10, .bf16⟩
  | .local _ .vmem, ⟨19, _⟩ => ⟨S10, .f32⟩
  | .local _ .vmem, ⟨20, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_cst : Ref sig .tc := ⟨.hbm, 78, rfl⟩
abbrev main_call1_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_9 : Ref sig .tc := ⟨.hbm, 84, rfl⟩
abbrev main_v55 : Ref sig .tc := ⟨.hbm, 85, rfl⟩
abbrev main_v56 : Ref sig .tc := ⟨.hbm, 86, rfl⟩
abbrev main_c_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call2_cst : Ref sig .tc := ⟨.hbm, 103, rfl⟩
abbrev main_call2_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_12 : Ref sig .tc := ⟨.hbm, 109, rfl⟩
abbrev main_v75 : Ref sig .tc := ⟨.hbm, 110, rfl⟩
abbrev main_v76 : Ref sig .tc := ⟨.hbm, 111, rfl⟩
abbrev main_c_13 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_14 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_15 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_16 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_18 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x128 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .bf16 = 32 ∨ (Rect.block (s := S256x128) S256x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .bf16 = 32 ∨ (Rect.block (s := S128x10) S128x10.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S10.size a ≤ S10.size a
  hwx3_4 : ∀ i : grid3.Coords, EltTy.bits .f32 = 32 ∨ (Rect.block (s := S10) S10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x10.size a ≤ S256x10.size a
  hwx3_5 : ∀ i : grid3.Coords, EltTy.bits .f32 = 32 ∨ (Rect.block (s := S256x10) S256x10.size (cc3_transform_5 i) (hinb3_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v72) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v103) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v104) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v105) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v106) S256x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 222
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S50000, .i32⟩
  | 19 => ⟨S1650000, .i32⟩
  | 20 => ⟨S1650000, .i32⟩
  | 21 => ⟨S_, .f32⟩
  | 22 => ⟨S50000, .f32⟩
  | 23 => ⟨S1650000, .f32⟩
  | 24 => ⟨S_, .f32⟩
  | 25 => ⟨S50000, .f32⟩
  | 26 => ⟨S1650000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S_, .i32⟩
  | 46 => ⟨S1650000, .i32⟩
  | 47 => ⟨S1650000, .i1⟩
  | 48 => ⟨S_, .i32⟩
  | 49 => ⟨S1650000, .i32⟩
  | 50 => ⟨S1650000, .i32⟩
  | 51 => ⟨S1650000, .i32⟩
  | 52 => ⟨S1650000x1, .i32⟩
  | 53 => ⟨S1650000, .f32⟩
  | 54 => ⟨S1650000, .f32⟩
  | 55 => ⟨S1650000, .f32⟩
  | 56 => ⟨S50000x128, .f32⟩
  | 57 => ⟨S_, .i32⟩
  | 58 => ⟨S1650000, .i32⟩
  | 59 => ⟨S1650000, .i1⟩
  | 60 => ⟨S_, .i32⟩
  | 61 => ⟨S1650000, .i32⟩
  | 62 => ⟨S1650000, .i32⟩
  | 63 => ⟨S1650000, .i32⟩
  | 64 => ⟨S1650000x1, .i32⟩
  | 65 => ⟨S1650000x128, .f32⟩
  | 66 => ⟨S1650000x1, .f32⟩
  | 67 => ⟨S1650000x128, .f32⟩
  | 68 => ⟨S1650000x128, .f32⟩
  | 69 => ⟨S_, .f32⟩
  | 70 => ⟨S50000x128, .f32⟩
  | 71 => ⟨S1650000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000, .i32⟩
  | 80 => ⟨S1650000, .i32⟩
  | 81 => ⟨S1650000, .i32⟩
  | 82 => ⟨S_, .f32⟩
  | 83 => ⟨S50000, .f32⟩
  | 84 => ⟨S1650000, .f32⟩
  | 85 => ⟨S_, .f32⟩
  | 86 => ⟨S50000, .f32⟩
  | 87 => ⟨S1650000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S1650000, .i32⟩
  | 99 => ⟨S1650000, .i1⟩
  | 100 => ⟨S_, .i32⟩
  | 101 => ⟨S1650000, .i32⟩
  | 102 => ⟨S1650000, .i32⟩
  | 103 => ⟨S1650000, .i32⟩
  | 104 => ⟨S1650000x1, .i32⟩
  | 105 => ⟨S1650000, .f32⟩
  | 106 => ⟨S_, .i32⟩
  | 107 => ⟨S1650000, .i32⟩
  | 108 => ⟨S1650000, .i1⟩
  | 109 => ⟨S_, .i32⟩
  | 110 => ⟨S1650000, .i32⟩
  | 111 => ⟨S1650000, .i32⟩
  | 112 => ⟨S1650000, .i32⟩
  | 113 => ⟨S1650000x1, .i32⟩
  | 114 => ⟨S1650000, .f32⟩
  | 115 => ⟨S1650000, .f32⟩
  | 116 => ⟨S1650000, .f32⟩
  | 117 => ⟨S50000x128, .f32⟩
  | 118 => ⟨S_, .i32⟩
  | 119 => ⟨S1650000, .i32⟩
  | 120 => ⟨S1650000, .i1⟩
  | 121 => ⟨S_, .i32⟩
  | 122 => ⟨S1650000, .i32⟩
  | 123 => ⟨S1650000, .i32⟩
  | 124 => ⟨S1650000, .i32⟩
  | 125 => ⟨S1650000x1, .i32⟩
  | 126 => ⟨S1650000x128, .f32⟩
  | 127 => ⟨S1650000x1, .f32⟩
  | _ => ⟨S50000x128, .f32⟩

abbrev hbmTy0_1 (i : Nat) : BufTy := match i % 128 with
  | 0 => ⟨S1650000x128, .f32⟩
  | 1 => ⟨S1650000x128, .f32⟩
  | 2 => ⟨S_, .f32⟩
  | 3 => ⟨S50000x128, .f32⟩
  | 4 => ⟨S1650000x1, .i32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000, .i32⟩
  | 13 => ⟨S1650000, .i32⟩
  | 14 => ⟨S1650000, .i32⟩
  | 15 => ⟨S_, .f32⟩
  | 16 => ⟨S50000, .f32⟩
  | 17 => ⟨S1650000, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1650000, .i32⟩
  | 32 => ⟨S1650000, .i1⟩
  | 33 => ⟨S_, .i32⟩
  | 34 => ⟨S1650000, .i32⟩
  | 35 => ⟨S1650000, .i32⟩
  | 36 => ⟨S1650000, .i32⟩
  | 37 => ⟨S1650000x1, .i32⟩
  | 38 => ⟨S1650000, .f32⟩
  | 39 => ⟨S_, .i32⟩
  | 40 => ⟨S1650000, .i32⟩
  | 41 => ⟨S1650000, .i1⟩
  | 42 => ⟨S_, .i32⟩
  | 43 => ⟨S1650000, .i32⟩
  | 44 => ⟨S1650000, .i32⟩
  | 45 => ⟨S1650000, .i32⟩
  | 46 => ⟨S1650000x1, .i32⟩
  | 47 => ⟨S1650000, .f32⟩
  | 48 => ⟨S1650000, .f32⟩
  | 49 => ⟨S1650000, .f32⟩
  | 50 => ⟨S50000x128, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000x128, .f32⟩
  | 60 => ⟨S1650000x1, .f32⟩
  | 61 => ⟨S1650000x128, .f32⟩
  | 62 => ⟨S1650000x128, .f32⟩
  | 63 => ⟨S_, .f32⟩
  | 64 => ⟨S50000x128, .f32⟩
  | 65 => ⟨S1650000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S256x128, .f32⟩
  | 72 => ⟨S50000x1, .i32⟩
  | 73 => ⟨S256x128, .f32⟩
  | 74 => ⟨S_, .f32⟩
  | 75 => ⟨S50000, .f32⟩
  | 76 => ⟨S_, .f32⟩
  | 77 => ⟨S256, .f32⟩
  | 78 => ⟨S50000x1, .i32⟩
  | 79 => ⟨S256, .f32⟩
  | 80 => ⟨S_, .f32⟩
  | 81 => ⟨S256, .f32⟩
  | 82 => ⟨S256, .f32⟩
  | 83 => ⟨S256x1, .f32⟩
  | 84 => ⟨S256x128, .f32⟩
  | 85 => ⟨S256x128, .f32⟩
  | 86 => ⟨S256x128, .f32⟩
  | 87 => ⟨S1x128, .f32⟩
  | 88 => ⟨S256x128, .f32⟩
  | 89 => ⟨S256x128, .f32⟩
  | 90 => ⟨S256x10, .f32⟩
  | 91 => ⟨S1x10, .f32⟩
  | 92 => ⟨S256x10, .f32⟩
  | 93 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v61 : Ref sig .tc := ⟨.hbm, 96, rfl⟩
abbrev main_c_13 : Ref sig .tc := ⟨.hbm, 97, rfl⟩
abbrev main_v62 : Ref sig .tc := ⟨.hbm, 98, rfl⟩
abbrev main_v63 : Ref sig .tc := ⟨.hbm, 99, rfl⟩
abbrev main_c_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_15 : Ref sig .tc := ⟨.hbm, 106, rfl⟩
abbrev main_v69 : Ref sig .tc := ⟨.hbm, 107, rfl⟩
abbrev main_v70 : Ref sig .tc := ⟨.hbm, 108, rfl⟩
abbrev main_c_16 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_17 : Ref sig .tc := ⟨.hbm, 118, rfl⟩
abbrev main_v79 : Ref sig .tc := ⟨.hbm, 119, rfl⟩
abbrev main_v80 : Ref sig .tc := ⟨.hbm, 120, rfl⟩
abbrev main_c_18 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call3_cst : Ref sig .tc := ⟨.hbm, 137, rfl⟩
abbrev main_call3_v0 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_20 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_22 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_23 : Ref sig .tc := ⟨.hbm, 154, rfl⟩
abbrev main_call4_v0 : Ref sig .tc := ⟨.hbm, 155, rfl⟩
abbrev main_call4_v1 : Ref sig .tc := ⟨.hbm, 156, rfl⟩
abbrev main_v107 : Ref sig .tc := ⟨.hbm, 157, rfl⟩
abbrev main_c_24 : Ref sig .tc := ⟨.hbm, 158, rfl⟩
abbrev main_v108 : Ref sig .tc := ⟨.hbm, 159, rfl⟩
abbrev main_v109 : Ref sig .tc := ⟨.hbm, 160, rfl⟩
abbrev main_c_25 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_c_26 : Ref sig .tc := ⟨.hbm, 167, rfl⟩
abbrev main_v115 : Ref sig .tc := ⟨.hbm, 168, rfl⟩
abbrev main_v116 : Ref sig .tc := ⟨.hbm, 169, rfl⟩
abbrev main_c_27 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_c_28 : Ref sig .tc := ⟨.hbm, 179, rfl⟩
abbrev main_v125 : Ref sig .tc := ⟨.hbm, 180, rfl⟩
abbrev main_v126 : Ref sig .tc := ⟨.hbm, 181, rfl⟩
abbrev main_c_29 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_30 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_31 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_32 : Ref sig .tc := ⟨.hbm, 202, rfl⟩
abbrev main_v144 : Ref sig .tc := ⟨.hbm, 203, rfl⟩
abbrev main_cst_33 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_34 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x10_S256x10_1_0_0_1_n_n_wf : DotDims.WF S256x128 S128x10 S256x10 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.KernelRun.lean ====
/-
  The idealized kernel's run with its result named: every weakly fair execution of the program terminates without a
  fault, the result array ends at what the last call's write-backs leave in it (the final boundary contents of the
  program's fold of host stretches and calls), and the argument arrays end as launched.
-/
import proofs.«100255_j21234318311432_1_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: the result array at
    the final boundary contents, each argument array at its launch contents. -/
theorem run_result : θ_run defs (onTc (τ := τ) (main (F := F))) ⟨m, fun _ => 0, ρ⟩ (fun r => ∀ c : Dev nD,
      r.2.mem ((c.tc : Thread nD τ).loc main_v106) = W14 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v106 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.RunValue

end
-- ==== Proof.LibPairConcat.lean ====
/-
  A concatenation of two pieces as a function of the two pieces.

  `concatenate t a xs h` takes its pieces as a list of (shape, contents) pairs, and the type of its side condition `h`
  mentions that list; a rewriting pass therefore cannot change a piece's contents in place. `cat2` is the same
  concatenation for exactly two pieces, with the side condition stated over the two shapes only, so that each piece is an
  ordinary argument. `cat2_fold` turns the one into the other; `after_results_pairs` is the library's one-pass reading
  of a fold of host operations with that lemma added, for host programs whose two-operand concatenations feed later
  operations. No program imported.
-/
import Idealize.ShloMosaic.Lib.StableHlo.Run

namespace Cert.LibPairConcat

open Idealize.ShloMosaic

/-- Two pieces side by side along axis `a` of the result shape `t`. -/
def cat2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

/-- A two-piece concatenation is `cat2` of its pieces. -/
theorem cat2_fold {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = cat2 t a s₁ s₂ h u v := rfl

end Cert.LibPairConcat

open Idealize.ShloMosaic.StableHlo in
/-- The fold of a literal list of host operations read at a result buffer, in one rewriting pass, two-piece
    concatenations folded so that the pass reaches their pieces. -/
macro "after_results_pairs" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibPairConcat.cat2_fold]))
-- ==== Proof.HostStretches.lean ====
/-
  The kernel program's host stretches, each read at the buffers the next dense call or the next stretch takes from it,
  from ANY buffer contents `V` at the stretch's entry. Each lemma says: if the stretch's inputs hold the reference's
  stage values, its output holds the reference's next stage value — the stretch's operations are, one for one, the
  operations the reference applies between the same stages (a gather of rows by source node, a scale by the edge
  norm, a scatter-add by target node, a bias, a rectifier; at the end the mean over each graph's nodes). A change to
  a narrower float format is the identity on the extended reals.
-/
import proofs.«100255_j21234318311432_1_alg».proof.Proof.Gen.KernelIdeal.Launch
import proofs.«100255_j21234318311432_1_alg».proof.Proof.Gen.ReferenceIdeal.Read
import proofs.«100255_j21234318311432_1_alg».proof.Proof.LibPairConcat
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretches

open Cert.KernelIdeal Cert.KernelIdeal.Gen Cert.ReferenceIdeal.Read

variable (V : Valuation τ sig (Elt Ideal))
variable (x0 : (⟨Cert.ReferenceIdeal.S50000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S50000, .i32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x10, .f32⟩ : BufTy).Contents (Elt Ideal)) (x13 : (⟨Cert.ReferenceIdeal.S10, .f32⟩ : BufTy).Contents (Elt Ideal))

/-! ## The first stretch: edge endpoints with self-loops appended, edge weights with ones appended, the weighted in-degree -/

/-- The source node of every edge, a self-loop appended per node. -/
theorem src_nodes (h1 : V (Proc.devRef .tc main_arg1) = x1) :
    StableHlo.after (hostOps0 (F := Ideal)) V (Proc.devRef .tc main_v5) = val_main_v5 (F := Ideal) x1 := by
  after_results_pairs
  rw [h1]
  simp only [val_main_v0, val_main_v1, val_main_v2, val_main_v3, val_main_v4, val_main_v5, Cert.LibPairConcat.cat2] <;> rfl

/-- The target node of every edge, a self-loop appended per node. -/
theorem dst_nodes (h1 : V (Proc.devRef .tc main_arg1) = x1) :
    StableHlo.after (hostOps0 (F := Ideal)) V (Proc.devRef .tc main_v6) = val_main_v6 (F := Ideal) x1 := by
  after_results_pairs
  rw [h1]
  simp only [val_main_v0, val_main_v1, val_main_v2, val_main_v3, val_main_v4, val_main_v5, val_main_v6, Cert.LibPairConcat.cat2] <;> rfl

/-- The edge weights, a one appended per self-loop. -/
theorem weights (h2 : V (Proc.devRef .tc main_arg2) = x2) :
    StableHlo.after (hostOps0 (F := Ideal)) V (Proc.devRef .tc main_v8) = val_main_v8 (F := Ideal) x2 := by
  after_results_pairs
  rw [h2]
  simp only [val_main_v0, val_main_v1, val_main_v2, val_main_v3, val_main_v4, val_main_v5, val_main_v6, val_main_cst, val_main_v7, val_main_v8, Cert.LibPairConcat.cat2] <;> rfl

/-- Whether a node's weighted in-degree is positive. -/
theorem degree_positive (h1 : V (Proc.devRef .tc main_arg1) = x1) (h2 : V (Proc.devRef .tc main_arg2) = x2) :
    StableHlo.after (hostOps0 (F := Ideal)) V (Proc.devRef .tc main_v13) = val_main_v13 (F := Ideal) x1 x2 := by
  after_results_pairs
  rw [h1, h2]
  simp only [val_main_v0, val_main_v1, val_main_v2, val_main_v3, val_main_v4, val_main_v5, val_main_v6, val_main_cst, val_main_v7, val_main_v8, val_main_cst_0, val_main_v9, val_main_v10, val_main_v11, val_main_cst_1, val_main_v12, val_main_v13, Cert.LibPairConcat.cat2] <;> rfl

/-- The reciprocal square root of a node's weighted in-degree. -/
theorem degree_rsqrt (h1 : V (Proc.devRef .tc main_arg1) = x1) (h2 : V (Proc.devRef .tc main_arg2) = x2) :
    StableHlo.after (hostOps0 (F := Ideal)) V (Proc.devRef .tc main_v14) = val_main_v14 (F := Ideal) x1 x2 := by
  after_results_pairs
  rw [h1, h2]
  simp only [val_main_v0, val_main_v1, val_main_v2, val_main_v3, val_main_v4, val_main_v5, val_main_v6, val_main_cst, val_main_v7, val_main_v8, val_main_cst_0, val_main_v9, val_main_v10, val_main_v11, val_main_cst_1, val_main_v12, val_main_v13, val_main_v14, Cert.LibPairConcat.cat2] <;> rfl

/-- The scalar zero the selection falls back to. -/
theorem zero_scalar :
    StableHlo.after (hostOps0 (F := Ideal)) V (Proc.devRef .tc main_cst_2) = val_main_cst_2 (F := Ideal) := by
  after_results_pairs
  skip
  simp only [val_main_v0, val_main_v1, val_main_v2, val_main_v3, val_main_v4, val_main_v5, val_main_v6, val_main_cst, val_main_v7, val_main_v8, val_main_cst_0, val_main_v9, val_main_v10, val_main_v11, val_main_cst_1, val_main_v12, val_main_v13, val_main_v14, val_main_cst_2, Cert.LibPairConcat.cat2] <;> rfl

/-! ## The selection of the reciprocal square root where the degree is positive (an outlined function of three operations) -/

/-- The outlined selection on any operand contents. -/
theorem select_outlined :
    StableHlo.after (hostOps0_1 (F := Ideal)) V (Proc.devRef .tc main_v15)
      = select (V (Proc.devRef .tc main_v13) : IVec S50000 1) (V (Proc.devRef .tc main_v14) : FVec Ideal S50000 .f32)
          (broadcastInDim S50000 ![] bcast_S_S50000 (V (Proc.devRef .tc main_cst_2) : FVec Ideal S_ .f32)) := by
  after_results_simp
  rfl

/-- The inverse square root of the degree, zero where the degree is not positive. -/
theorem inv_sqrt_degree (h13 : V (Proc.devRef .tc main_v13) = val_main_v13 (F := Ideal) x1 x2) (h14 : V (Proc.devRef .tc main_v14) = val_main_v14 (F := Ideal) x1 x2)
    (hc : V (Proc.devRef .tc main_cst_2) = val_main_cst_2 (F := Ideal)) :
    StableHlo.after (hostOps0_1 (F := Ideal)) V (Proc.devRef .tc main_v15) = val_main_v15 (F := Ideal) x1 x2 := by
  refine (select_outlined V).trans ?_
  rw [h13, h14, hc]
  simp only [val_main_v15, val_main_call0_v1, val_main_call0_v0] <;> rfl

/-! ## The third stretch: the edge norm, and the first projection's operands in the narrower format -/

/-- The symmetric edge norm: the two endpoints' inverse square root degrees times the edge weight. -/
theorem edge_norm (h5 : V (Proc.devRef .tc main_v5) = val_main_v5 (F := Ideal) x1) (h6 : V (Proc.devRef .tc main_v6) = val_main_v6 (F := Ideal) x1) (h8 : V (Proc.devRef .tc main_v8) = val_main_v8 (F := Ideal) x2) (h15 : V (Proc.devRef .tc main_v15) = val_main_v15 (F := Ideal) x1 x2) :
    StableHlo.after (hostOps0_2 (F := Ideal)) V (Proc.devRef .tc main_v31) = val_main_v31 (F := Ideal) x1 x2 := by
  after_results_simp
  rw [h5, h6, h8, h15]
  simp only [val_main_c, val_main_v16, val_main_v17, val_main_c_3, val_main_v18, val_main_v19, val_main_v20, val_main_v21, val_main_v22, val_main_c_4, val_main_v23, val_main_v24, val_main_c_5, val_main_v25, val_main_v26, val_main_v27, val_main_v28, val_main_v29, val_main_v30, val_main_v31] <;> rfl

/-- The node features in the narrower format are the node features. -/
theorem features_narrow : (StableHlo.after (hostOps0_2 (F := Ideal)) V (Proc.devRef .tc main_v32) : S50000x128.Idx → EReal) = (V (Proc.devRef .tc main_arg0) : S50000x128.Idx → EReal) := by
  after_results_simp
  rfl

/-- The first layer's weight in the narrower format is that weight. -/
theorem weight1_narrow : (StableHlo.after (hostOps0_2 (F := Ideal)) V (Proc.devRef .tc main_v33) : S128x128.Idx → EReal) = (V (Proc.devRef .tc main_arg4) : S128x128.Idx → EReal) := by
  after_results_simp
  rfl

/-! ## After the first projection: gather, scale, scatter-add, bias; the rectifier; the second projection's operands -/

/-- The first layer's aggregation of the projected features plus its bias. -/
theorem aggregate1 (h5 : V (Proc.devRef .tc main_v5) = val_main_v5 (F := Ideal) x1) (h6 : V (Proc.devRef .tc main_v6) = val_main_v6 (F := Ideal) x1) (h31 : V (Proc.devRef .tc main_v31) = val_main_v31 (F := Ideal) x1 x2) (h34 : V (Proc.devRef .tc main_v34) = val_main_v32 (F := Ideal) x0 x4) (hb : V (Proc.devRef .tc main_arg5) = x5) :
    StableHlo.after (hostOps1 (F := Ideal)) V (Proc.devRef .tc main_v50) = val_main_v48 (F := Ideal) x0 x1 x2 x4 x5 := by
  after_results_simp
  rw [h5, h6, h31, h34, hb]
  simp only [val_main_c_6, val_main_v33, val_main_v34, val_main_c_7, val_main_v35, val_main_v36, val_main_v37, val_main_v38, val_main_v39, val_main_v40, val_main_v41, val_main_v42, val_main_cst_8, val_main_v43, val_main_v44, val_main_v45, val_main_v46, val_main_v47, val_main_v48] <;> rfl

/-- The outlined rectifier on any operand contents. -/
theorem rectify1_outlined :
    StableHlo.after (hostOps1_1 (F := Ideal)) V (Proc.devRef .tc main_v51)
      = maximumf (V (Proc.devRef .tc main_v50) : FVec Ideal S50000x128 .f32)
          (broadcastInDim S50000x128 ![] bcast_S_S50000x128 (constant (F := Ideal) S_ .f32 0x00000000#32)) := by
  after_results_simp
  rfl

/-- The rectified layer output. -/
theorem rectify1 (h : V (Proc.devRef .tc main_v50) = val_main_v48 (F := Ideal) x0 x1 x2 x4 x5) :
    StableHlo.after (hostOps1_1 (F := Ideal)) V (Proc.devRef .tc main_v51) = val_main_v49 (F := Ideal) x0 x1 x2 x4 x5 := by
  refine (rectify1_outlined V).trans ?_
  rw [h]
  simp only [val_main_v49, val_main_call1_v0, val_main_call1_cst] <;> rfl

/-- The first hidden features in the narrower format are those features. -/
theorem hidden1_narrow : (StableHlo.after (hostOps1_2 (F := Ideal)) V (Proc.devRef .tc main_v52) : S50000x128.Idx → EReal) = (V (Proc.devRef .tc main_v51) : S50000x128.Idx → EReal) := by
  after_results_simp
  rfl

/-- The second layer's weight in the narrower format is that weight. -/
theorem weight2_narrow : (StableHlo.after (hostOps1_2 (F := Ideal)) V (Proc.devRef .tc main_v53) : S128x128.Idx → EReal) = (V (Proc.devRef .tc main_arg6) : S128x128.Idx → EReal) := by
  after_results_simp
  rfl

/-! ## After the second projection -/

/-- The second layer's aggregation of the projected features plus its bias. -/
theorem aggregate2 (h5 : V (Proc.devRef .tc main_v5) = val_main_v51 (F := Ideal) x1) (h6 : V (Proc.devRef .tc main_v6) = val_main_v52 (F := Ideal) x1) (h31 : V (Proc.devRef .tc main_v31) = val_main_v77 (F := Ideal) x1 x2) (h54 : V (Proc.devRef .tc main_v54) = val_main_v78 (F := Ideal) x0 x1 x2 x4 x5 x6) (hb : V (Proc.devRef .tc main_arg7) = x7) :
    StableHlo.after (hostOps2 (F := Ideal)) V (Proc.devRef .tc main_v70) = val_main_v94 (F := Ideal) x0 x1 x2 x4 x5 x6 x7 := by
  after_results_simp
  rw [h5, h6, h31, h54, hb]
  simp only [val_main_c_17, val_main_v79, val_main_v80, val_main_c_18, val_main_v81, val_main_v82, val_main_v83, val_main_v84, val_main_v85, val_main_v86, val_main_v87, val_main_v88, val_main_cst_19, val_main_v89, val_main_v90, val_main_v91, val_main_v92, val_main_v93, val_main_v94] <;> rfl

/-- The outlined rectifier on any operand contents. -/
theorem rectify2_outlined :
    StableHlo.after (hostOps2_1 (F := Ideal)) V (Proc.devRef .tc main_v71)
      = maximumf (V (Proc.devRef .tc main_v70) : FVec Ideal S50000x128 .f32)
          (broadcastInDim S50000x128 ![] bcast_S_S50000x128 (constant (F := Ideal) S_ .f32 0x00000000#32)) := by
  after_results_simp
  rfl

/-- The rectified layer output. -/
theorem rectify2 (h : V (Proc.devRef .tc main_v70) = val_main_v94 (F := Ideal) x0 x1 x2 x4 x5 x6 x7) :
    StableHlo.after (hostOps2_1 (F := Ideal)) V (Proc.devRef .tc main_v71) = val_main_v95 (F := Ideal) x0 x1 x2 x4 x5 x6 x7 := by
  refine (rectify2_outlined V).trans ?_
  rw [h]
  simp only [val_main_v95, val_main_call3_v0, val_main_call3_cst] <;> rfl

/-- The second hidden features in the narrower format are those features. -/
theorem hidden2_narrow : (StableHlo.after (hostOps2_2 (F := Ideal)) V (Proc.devRef .tc main_v72) : S50000x128.Idx → EReal) = (V (Proc.devRef .tc main_v71) : S50000x128.Idx → EReal) := by
  after_results_simp
  rfl

/-- The third layer's weight in the narrower format is that weight. -/
theorem weight3_narrow : (StableHlo.after (hostOps2_2 (F := Ideal)) V (Proc.devRef .tc main_v73) : S128x128.Idx → EReal) = (V (Proc.devRef .tc main_arg8) : S128x128.Idx → EReal) := by
  after_results_simp
  rfl

/-! ## After the third projection: the third aggregation and the mean over each graph's nodes -/

/-- The third layer's output averaged over the nodes of each graph. -/
theorem graph_means (h5 : V (Proc.devRef .tc main_v5) = val_main_v97 (F := Ideal) x1) (h6 : V (Proc.devRef .tc main_v6) = val_main_v98 (F := Ideal) x1) (h31 : V (Proc.devRef .tc main_v31) = val_main_v123 (F := Ideal) x1 x2) (h74 : V (Proc.devRef .tc main_v74) = val_main_v124 (F := Ideal) x0 x1 x2 x4 x5 x6 x7 x8) (hb : V (Proc.devRef .tc main_arg9) = x9) (hg : V (Proc.devRef .tc main_arg3) = x3) :
    StableHlo.after (hostOps3 (F := Ideal)) V (Proc.devRef .tc main_v102) = val_main_v152 (F := Ideal) x0 x1 x2 x3 x4 x5 x6 x7 x8 x9 := by
  after_results_simp
  rw [h5, h6, h31, h74, hb, hg]
  simp only [val_main_c_28, val_main_v125, val_main_v126, val_main_c_29, val_main_v127, val_main_v128, val_main_v129, val_main_v130, val_main_v131, val_main_v132, val_main_v133, val_main_v134, val_main_cst_30, val_main_v135, val_main_v136, val_main_v137, val_main_v138, val_main_v139, val_main_v140, val_main_cst_31, val_main_v141, val_main_v142, val_main_v143, val_main_cst_32, val_main_v144, val_main_cst_33, val_main_v145, val_main_v146, val_main_v147, val_main_cst_34, val_main_v148, val_main_v149, val_main_v150, val_main_v151, val_main_v152] <;> rfl

/-- The graph means in the narrower format are the graph means. -/
theorem graph_means_narrow (h5 : V (Proc.devRef .tc main_v5) = val_main_v97 (F := Ideal) x1) (h6 : V (Proc.devRef .tc main_v6) = val_main_v98 (F := Ideal) x1) (h31 : V (Proc.devRef .tc main_v31) = val_main_v123 (F := Ideal) x1 x2) (h74 : V (Proc.devRef .tc main_v74) = val_main_v124 (F := Ideal) x0 x1 x2 x4 x5 x6 x7 x8) (hb : V (Proc.devRef .tc main_arg9) = x9) (hg : V (Proc.devRef .tc main_arg3) = x3) :
    (StableHlo.after (hostOps3 (F := Ideal)) V (Proc.devRef .tc main_v103) : S256x128.Idx → EReal) = (val_main_v152 (F := Ideal) x0 x1 x2 x3 x4 x5 x6 x7 x8 x9 : S256x128.Idx → EReal) := by
  have e := graph_means V x0 x1 x2 x3 x4 x5 x6 x7 x8 x9 h5 h6 h31 h74 hb hg
  have n : (StableHlo.after (hostOps3 (F := Ideal)) V (Proc.devRef .tc main_v103) : S256x128.Idx → EReal) = (StableHlo.after (hostOps3 (F := Ideal)) V (Proc.devRef .tc main_v102) : S256x128.Idx → EReal) := by
    after_results_simp
    rfl
  exact n.trans e

/-- The classifier's first weight in the narrower format is that weight. -/
theorem classifier_weight1_narrow : (StableHlo.after (hostOps3 (F := Ideal)) V (Proc.devRef .tc main_v104) : S128x128.Idx → EReal) = (V (Proc.devRef .tc main_arg10) : S128x128.Idx → EReal) := by
  after_results_simp
  rfl

/-- The classifier's second weight in the narrower format is that weight. -/
theorem classifier_weight2_narrow : (StableHlo.after (hostOps3 (F := Ideal)) V (Proc.devRef .tc main_v105) : S128x10.Idx → EReal) = (V (Proc.devRef .tc main_arg12) : S128x10.Idx → EReal) := by
  after_results_simp
  rfl

end Cert.KernelIdeal.Stretches

end
-- ==== Proof.ReferenceLayers.lean ====
/-
  The reference recomputes, in each of its three layers, the edge endpoints with self-loops and the symmetric edge
  norm from the same two argument arrays by the same operations: the later copies are the first layer's.
-/
import proofs.«100255_j21234318311432_1_alg».proof.Proof.Gen.ReferenceIdeal.Read

set_option maxRecDepth 16384

noncomputable section

open Idealize.ShloMosaic Idealize.ShloMosaic.TcCoe Idealize.SL.Sem

namespace Cert.ReferenceIdeal.Layers

open Cert.ReferenceIdeal Cert.ReferenceIdeal.Read

variable (x1 : (⟨S2x1600000, .i32⟩ : BufTy).Contents (Elt Ideal)) (x2 : (⟨S1600000, .f32⟩ : BufTy).Contents (Elt Ideal))

/-- The second layer's source nodes are the first layer's. -/
theorem src2 : val_main_v51 (F := Ideal) x1 = val_main_v5 (F := Ideal) x1 := by
  simp only [val_main_v51, val_main_v50, val_main_v5, val_main_v4] <;> rfl

/-- The second layer's target nodes are the first layer's. -/
theorem dst2 : val_main_v52 (F := Ideal) x1 = val_main_v6 (F := Ideal) x1 := by
  simp only [val_main_v52, val_main_v50, val_main_v6, val_main_v4] <;> rfl

/-- The second layer's edge norm is the first layer's. -/
theorem norm2 : val_main_v77 (F := Ideal) x1 x2 = val_main_v31 (F := Ideal) x1 x2 := by
  simp only [val_main_v50, val_main_v51, val_main_v52, val_main_cst_9, val_main_v53, val_main_v54, val_main_cst_10, val_main_v55, val_main_v56, val_main_v57, val_main_cst_11, val_main_v58, val_main_v59, val_main_v60, val_main_cst_12, val_main_call2_v0, val_main_call2_v1, val_main_v61, val_main_c_13, val_main_v62, val_main_v63, val_main_c_14, val_main_v64, val_main_v65, val_main_v66, val_main_v67, val_main_v68, val_main_c_15, val_main_v69, val_main_v70, val_main_c_16, val_main_v71, val_main_v72, val_main_v73, val_main_v74, val_main_v75, val_main_v76, val_main_v77, val_main_v4, val_main_v5, val_main_v6, val_main_cst, val_main_v7, val_main_v8, val_main_cst_0, val_main_v9, val_main_v10, val_main_v11, val_main_cst_1, val_main_v12, val_main_v13, val_main_v14, val_main_cst_2, val_main_call0_v0, val_main_call0_v1, val_main_v15, val_main_c, val_main_v16, val_main_v17, val_main_c_3, val_main_v18, val_main_v19, val_main_v20, val_main_v21, val_main_v22, val_main_c_4, val_main_v23, val_main_v24, val_main_c_5, val_main_v25, val_main_v26, val_main_v27, val_main_v28, val_main_v29, val_main_v30, val_main_v31] <;> rfl

/-- The third layer's source nodes are the first layer's. -/
theorem src3 : val_main_v97 (F := Ideal) x1 = val_main_v5 (F := Ideal) x1 := by
  simp only [val_main_v97, val_main_v96, val_main_v5, val_main_v4] <;> rfl

/-- The third layer's target nodes are the first layer's. -/
theorem dst3 : val_main_v98 (F := Ideal) x1 = val_main_v6 (F := Ideal) x1 := by
  simp only [val_main_v98, val_main_v96, val_main_v6, val_main_v4] <;> rfl

/-- The third layer's edge norm is the first layer's. -/
theorem norm3 : val_main_v123 (F := Ideal) x1 x2 = val_main_v31 (F := Ideal) x1 x2 := by
  simp only [val_main_v96, val_main_v97, val_main_v98, val_main_cst_20, val_main_v99, val_main_v100, val_main_cst_21, val_main_v101, val_main_v102, val_main_v103, val_main_cst_22, val_main_v104, val_main_v105, val_main_v106, val_main_cst_23, val_main_call4_v0, val_main_call4_v1, val_main_v107, val_main_c_24, val_main_v108, val_main_v109, val_main_c_25, val_main_v110, val_main_v111, val_main_v112, val_main_v113, val_main_v114, val_main_c_26, val_main_v115, val_main_v116, val_main_c_27, val_main_v117, val_main_v118, val_main_v119, val_main_v120, val_main_v121, val_main_v122, val_main_v123, val_main_v4, val_main_v5, val_main_v6, val_main_cst, val_main_v7, val_main_v8, val_main_cst_0, val_main_v9, val_main_v10, val_main_v11, val_main_cst_1, val_main_v12, val_main_v13, val_main_v14, val_main_cst_2, val_main_call0_v0, val_main_call0_v1, val_main_v15, val_main_c, val_main_v16, val_main_v17, val_main_c_3, val_main_v18, val_main_v19, val_main_v20, val_main_v21, val_main_v22, val_main_c_4, val_main_v23, val_main_v24, val_main_c_5, val_main_v25, val_main_v26, val_main_v27, val_main_v28, val_main_v29, val_main_v30, val_main_v31] <;> rfl

end Cert.ReferenceIdeal.Layers

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.LibMatProd.lean ====
/-
  The row-by-column product of two matrices over the extended reals, entry by entry, for arbitrary extents.

  * `matProd A B`: the matrix whose entry `(a, b)` is the sum over `c` of `A (a, c) * B (c, b)`.
  * `hostDot_eq_matProd`: a host `dot_general` of an `[m, k]` by a `[k, n]` matrix, contracting the first operand's
    columns with the second's rows, is `matProd` of its operands at the ideal values.
  * `vecMatmul_zero_eq_matProd`: so is a `tpu.matmul` of the same layout into a zero accumulator.
  * `truncf_eq`: at the ideal values a change to a narrower float format leaves an array as it is.
  No program imported.
-/
import Idealize.ShloMosaic.Lib.Pipeline.Value
import Idealize.ShloMosaic.Lib.ValueIdx
import Idealize.ShloMosaic.PureOps.Ideal.Laws
import proofs.«100255_j21234318311432_1_alg».proof.Proof.LibDenseLayers
import proofs.«100255_j21234318311432_1_alg».proof.Proof.LibHostMatmul

noncomputable section

namespace Idealize.ShloMosaic.MatProd

open Idealize.ShloMosaic Idealize.ShloMosaic.ValueIdx

/-- The product of an `[m, k]` matrix and a `[k, n]` matrix over the extended reals: entry `(a, b)` is the sum over the
    shared coordinate of the products of the entries. -/
def matProd {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply {m k n : ℕ} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's matrix product is the product of the matrices. -/
theorem hostDot_eq_matProd {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    Host.dotGeneral (⟨[1], [0], [0], [1], [], [], w⟩ : DotDims ⟨2, ![m, k]⟩ ⟨2, ![k, n]⟩ ⟨2, ![m, n]⟩) prec A B
      = matProd A B := by
  funext i
  obtain ⟨a, b, rfl⟩ : ∃ (a : Fin m) (b : Fin n), i = ix2 a b := ⟨i 0, i 1, eq_ix2 i⟩
  exact DenseLayers.dotGeneral_rowcol_apply w prec A B a b

/-- The vector unit's matrix product into a zero accumulator is the product of the matrices. -/
theorem vecMatmul_zero_eq_matProd {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32)
      = matProd A B := by
  funext i
  obtain ⟨a, b, rfl⟩ : ∃ (a : Fin m) (b : Fin n), i = ix2 a b := ⟨i 0, i 1, eq_ix2 i⟩
  exact DenseLayers.matmul_rowcol_zero_apply w prec A B a b

/-- At the ideal values a change to a narrower float format is the identity on arrays. -/
theorem truncf_eq {s : Shape} {φ ψ : FTy} (a : FVec Ideal s φ) (h : ψ.bits < φ.bits) :
    (truncf ψ a h : FVec Ideal s ψ) = a := rfl

end Idealize.ShloMosaic.MatProd

end
-- ==== Proof.Dense0.lean ====
/-
  What the first dense projection leaves in its result array: the row-by-column product of its two operand
  arrays as the call finds them. The call walks the rows in ten blocks of 5000; block `t` of the result is the product of
  rows `5000 t … 5000 t + 4999` of the left operand with the whole right operand, and the ten blocks tile the array.
-/
import proofs.«100255_j21234318311432_1_alg».proof.Proof.Gen.KernelIdeal.Frame
import proofs.«100255_j21234318311432_1_alg».proof.Proof.LibMatProd
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Idealize.ShloMosaic.MatProd

namespace Cert.KernelIdeal.Dense0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value, entry by entry: the product of the loaded left block and the loaded right matrix. -/
theorem payload_apply (x0 : Vec Ideal S5000x128 .bf16) (x1 : Vec Ideal S128x128 .bf16) (p : Fin 5000) (q : Fin 128) :
    k0_pay1 x0 x1 (ix2 p q) = ∑ c : Fin 128, x0 (ix2 p c) * x1 (ix2 c q) := by
  unfold k0_pay1
  simp only [shapeCast_self]
  exact DenseLayers.matmul_rowcol_zero_apply dot_S5000x128_S128x128_S5000x128_1_0_0_1_n_n_wf none x0 x1 p q

/-- Where the three windows' blocks sit at grid point `t`: the left operand's and the result's at row block `t`, the
    right operand's always at the origin. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem N_eq : cfg0.N = 10 := N_0

/-- The left operand's block at point `t`, entry `(p, k)`: row `5000 t + p` of the array. -/
theorem left_block (c : Dev nD) (t : Fin cfg0.N) (p : Fin 5000) (k : Fin 128) (r : Fin 50000) (hr : r.val = t.val * 5000 + p.val) :
    (iblk0 V c 0 t : Vec Ideal S5000x128 .bf16) (ix2 p k) = (V c (Pipeline.arrRef spec0 0) : S50000x128.Idx → EReal) (ix2 r k) := by
  obtain ⟨e0, e1, -, -, -, -⟩ := block_positions t
  unfold iblk0
  rw [View.read_apply]
  refine congrArg (V c (Pipeline.arrRef spec0 0)) ?_
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The right operand's block at any point is the whole array. -/
theorem right_block (c : Dev nD) (t : Fin cfg0.N) (k : Fin 128) (q : Fin 128) :
    (iblk0 V c 1 t : Vec Ideal S128x128 .bf16) (ix2 k q) = (V c (Pipeline.arrRef spec0 1) : S128x128.Idx → EReal) (ix2 k q) := by
  obtain ⟨-, -, e2, e3, -, -⟩ := block_positions t
  unfold iblk0
  rw [View.read_apply]
  refine congrArg (V c (Pipeline.arrRef spec0 1)) ?_
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- The product of the two operand arrays as the call finds them. -/
abbrev product (c : Dev nD) : S50000x128.Idx → EReal :=
  matProd (m := 50000) (k := 128) (n := 128) (V c (Pipeline.arrRef spec0 0)) (V c (Pipeline.arrRef spec0 1))

/-- What point `t` writes back is block `t` of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := block_positions t
  have ht : t.val < 10 := lt_of_lt_of_eq t.isLt N_eq
  funext j
  obtain ⟨p, q, rfl⟩ : ∃ (p : Fin 5000) (q : Fin 128), j = ix2 p q := ⟨j 0, j 1, eq_ix2 j⟩
  have hrow : ((cfg0.win 2).blk t).view.emb (ix2 p q) = (ix2 (⟨t.val * 5000 + p.val, by have := p.isLt; omega⟩ : Fin 50000) q : S50000x128.Idx) := by
    funext a
    apply Fin.ext
    match a with
    | ⟨0, _⟩ => show win0_2.index t 0 * 5000 + 1 * p.val = t.val * 5000 + p.val; rw [e4]; omega
    | ⟨1, _⟩ => show win0_2.index t 1 * 128 + 1 * q.val = q.val; rw [e5]; omega
  show k0_pay1 (iblk0 V c 0 t) (iblk0 V c 1 t) (ix2 p q) = product V c (((cfg0.win 2).blk t).view.emb (ix2 p q))
  rw [hrow]
  refine (payload_apply (iblk0 V c 0 t) (iblk0 V c 1 t) p q).trans ?_
  refine Finset.sum_congr rfl fun k _ => ?_
  rw [left_block V c t p k ⟨t.val * 5000 + p.val, by have := p.isLt; omega⟩ rfl, right_block V c t k q]

/-- An index lies in point `t`'s block of the result exactly when its row lies in row block `t`. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- The ten row blocks tile the result array, so after the call it holds the product. -/
theorem result_eq (c : Dev nD) : (dat0 V c).arrAt 2 cfg0.N = product V c :=
  (dat0 V c).arrAt_eq_of_cover 2 (product V c) (fun t _ => flushed_eq V c t) fun i => by
    have hi0 : (i 0).val < 50000 := (i 0).isLt
    have hi1 : (i 1).val < 128 := (i 1).isLt
    refine ⟨⟨(i 0).val / 5000, by rw [N_eq]; omega⟩, flush0_2 _, ?_⟩
    rw [mem_block]
    obtain ⟨-, -, -, -, e4, e5⟩ := block_positions ⟨(i 0).val / 5000, by rw [N_eq]; omega⟩
    intro a
    match a with
    | ⟨0, _⟩ => show win0_2.index _ 0 * 5000 ≤ (i 0).val ∧ (i 0).val < win0_2.index _ 0 * 5000 + 5000; rw [e4]; show (i 0).val / 5000 * 5000 ≤ (i 0).val ∧ (i 0).val < (i 0).val / 5000 * 5000 + 5000; omega
    | ⟨1, _⟩ => show win0_2.index _ 1 * 128 ≤ (i 1).val ∧ (i 1).val < win0_2.index _ 1 * 128 + 128; rw [e5]; omega

end Cert.KernelIdeal.Dense0

end
-- ==== Proof.Dense1.lean ====
/-
  What the second dense projection leaves in its result array: the row-by-column product of its two operand
  arrays as the call finds them. The call walks the rows in ten blocks of 5000; block `t` of the result is the product of
  rows `5000 t … 5000 t + 4999` of the left operand with the whole right operand, and the ten blocks tile the array.
-/
import proofs.«100255_j21234318311432_1_alg».proof.Proof.Gen.KernelIdeal.Frame
import proofs.«100255_j21234318311432_1_alg».proof.Proof.LibMatProd
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Idealize.ShloMosaic.MatProd

namespace Cert.KernelIdeal.Dense1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value, entry by entry: the product of the loaded left block and the loaded right matrix. -/
theorem payload_apply (x0 : Vec Ideal S5000x128 .bf16) (x1 : Vec Ideal S128x128 .bf16) (p : Fin 5000) (q : Fin 128) :
    k1_pay1 x0 x1 (ix2 p q) = ∑ c : Fin 128, x0 (ix2 p c) * x1 (ix2 c q) := by
  unfold k1_pay1
  simp only [shapeCast_self]
  exact DenseLayers.matmul_rowcol_zero_apply dot_S5000x128_S128x128_S5000x128_1_0_0_1_n_n_wf none x0 x1 p q

/-- Where the three windows' blocks sit at grid point `t`: the left operand's and the result's at row block `t`, the
    right operand's always at the origin. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem N_eq : cfg1.N = 10 := N_1

/-- The left operand's block at point `t`, entry `(p, k)`: row `5000 t + p` of the array. -/
theorem left_block (c : Dev nD) (t : Fin cfg1.N) (p : Fin 5000) (k : Fin 128) (r : Fin 50000) (hr : r.val = t.val * 5000 + p.val) :
    (iblk1 V c 0 t : Vec Ideal S5000x128 .bf16) (ix2 p k) = (V c (Pipeline.arrRef spec1 0) : S50000x128.Idx → EReal) (ix2 r k) := by
  obtain ⟨e0, e1, -, -, -, -⟩ := block_positions t
  unfold iblk1
  rw [View.read_apply]
  refine congrArg (V c (Pipeline.arrRef spec1 0)) ?_
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- The right operand's block at any point is the whole array. -/
theorem right_block (c : Dev nD) (t : Fin cfg1.N) (k : Fin 128) (q : Fin 128) :
    (iblk1 V c 1 t : Vec Ideal S128x128 .bf16) (ix2 k q) = (V c (Pipeline.arrRef spec1 1) : S128x128.Idx → EReal) (ix2 k q) := by
  obtain ⟨-, -, e2, e3, -, -⟩ := block_positions t
  unfold iblk1
  rw [View.read_apply]
  refine congrArg (V c (Pipeline.arrRef spec1 1)) ?_
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

/-- The product of the two operand arrays as the call finds them. -/
abbrev product (c : Dev nD) : S50000x128.Idx → EReal :=
  matProd (m := 50000) (k := 128) (n := 128) (V c (Pipeline.arrRef spec1 0)) (V c (Pipeline.arrRef spec1 1))

/-- What point `t` writes back is block `t` of the product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := block_positions t
  have ht : t.val < 10 := lt_of_lt_of_eq t.isLt N_eq
  funext j
  obtain ⟨p, q, rfl⟩ : ∃ (p : Fin 5000) (q : Fin 128), j = ix2 p q := ⟨j 0, j 1, eq_ix2 j⟩
  have hrow : ((cfg1.win 2).blk t).view.emb (ix2 p q) = (ix2 (⟨t.val * 5000 + p.val, by have := p.isLt; omega⟩ : Fin 50000) q : S50000x128.Idx) := by
    funext a
    apply Fin.ext
    match a with
    | ⟨0, _⟩ => show win1_2.index t 0 * 5000 + 1 * p.val = t.val * 5000 + p.val; rw [e4]; omega
    | ⟨1, _⟩ => show win1_2.index t 1 * 128 + 1 * q.val = q.val; rw [e5]; omega
  show k1_pay1 (iblk1 V c 0 t) (iblk1 V c 1 t) (ix2 p q) = product V c (((cfg1.win 2).blk t).view.emb (ix2 p q))
  rw [hrow]
  refine (payload_apply (iblk1 V c 0 t) (iblk1 V c 1 t) p q).trans ?_
  refine Finset.sum_congr rfl fun k _ => ?_
  rw [left_block V c t p k ⟨t.val * 5000 + p.val, by have := p.isLt; omega⟩ rfl, right_block V c t k q]

/-- An index lies in point `t`'s block of the result exactly when its row lies in row block `t`. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v54).slice (win1_2.rect t)).set ↔ _
  rw [View.set_slice_whole, Rect.mem_set_unit]
  exact Iff.rfl

/-- The ten row blocks tile the result array, so after the call it holds the product. -/
theorem result_eq (c : Dev nD) : (dat1 V c).arrAt 2 cfg1.N = product V c :=
  (dat1 V c).arrAt_eq_of_cover 2 (product V c) (fun t _ => flushed_eq V c t) fun i => by
    have hi0 : (i 0).val < 50000 := (i 0).isLt
    have hi1 : (i 1).val < 128 := (i 1).isLt
    refine ⟨⟨(i 0).val / 5000, by rw [N_eq]; omega⟩, flush1_2 _, ?_⟩
    rw [mem_block]
    obtain ⟨-, -, -, -, e4, e5⟩ := block_positions ⟨(i 0).val / 5000, by rw [N_eq]; omega⟩
    intro a
    match a with
    | ⟨0, _⟩ => show win1_2.index _ 0 * 5000 ≤ (i 0).val ∧ (i 0).val < win1_2.index _ 0 * 5000 + 5000; rw [e4]; show (i 0).val / 5000 * 5000 ≤ (i 0).val ∧ (i 0).val < (i 0).val / 5000 * 5000 + 5000; omega
    | ⟨1, _⟩ => show win1_2.index _ 1 * 128 ≤ (i 1).val ∧ (i 1).val < win1_2.index _ 1 * 128 + 128; rw [e5]; omega

end Cert.KernelIdeal.Dense1

end
-- ==== Proof.Dense2.lean ====
/-
  What the third dense projection leaves in its result array: the row-by-column product of its two operand
  arrays as the call finds them. The call walks the rows in ten blocks of 5000; block `t` of the result is the product of
  rows `5000 t … 5000 t + 4999` of the left operand with the whole right operand, and the ten blocks tile the array.
-/
import proofs.«100255_j21234318311432_1_alg».proof.Proof.Gen.KernelIdeal.Frame
import proofs.«100255_j21234318311432_1_alg».proof.Proof.LibMatProd
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Idealize.ShloMosaic.MatProd

namespace Cert.KernelIdeal.Dense2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's one stored value, entry by entry: the product of the loaded left block and the loaded right matrix. -/
theorem payload_apply (x0 : Vec Ideal S5000x128 .bf16) (x1 : Vec Ideal S128x128 .bf16) (p : Fin 5000) (q : Fin 128) :
    k2_pay1 x0 x1 (ix2 p q) = ∑ c : Fin 128, x0 (ix2 p c) * x1 (ix2 c q) := by
  unfold k2_pay1
  simp only [shapeCast_self]
  exact DenseLayers.matmul_rowcol_zero_apply dot_S5000x128_S128x128_S5000x128_1_0_0_1_n_n_wf none x0 x1 p q

/-- Where the three windows' blocks sit at grid point `t`: the left operand's and the result's at row block `t`, the
    right operand's always at the origin. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem N_eq : cfg2.N = 10 := N_2

/-- The left operand's block at point `t`, entry `(p, k)`: row `5000 t + p` of the array. -/
theorem left_block (c : Dev nD) (t : Fin cfg2.N) (p : Fin 5000) (k : Fin 128) (r : Fin 50000) (hr : r.val = t.val * 5000 + p.val) :
    (iblk2 V c 0 t : Vec Ideal S5000x128 .bf16) (ix2 p k) = (V c (Pipeline.arrRef spec2 0) : S50000x128.Idx → EReal) (ix2 r k) := by
  obtain ⟨e0, e1, -, -, -, -⟩ := block_positions t
  unfold iblk2
  rw [View.read_apply]
  refine congrArg (V c (Pipeline.arrRef spec2 0)) ?_
  funext a
  apply Fin.ext
  match a with
  | ⟨0, _⟩ => show win2_0.index t 0 * 5000 + 1 * p.val = r.val; rw [e0, hr]; omega
  | ⟨1, _⟩ => show win2_0.index t 1 * 128 + 1 * k.val = k.val; rw [e1]; omega

/-- The right operand's block at any point is the whole array. -/
theorem right_block (c : Dev nD) (t : Fin cfg2.N) (k : Fin 128) (q : Fin 128) :
    (iblk2 V c 1 t : Vec Ideal S128x128 .bf16) (ix2 k q) = (V c (Pipeline.arrRef spec2 1) : S128x128.Idx → EReal) (ix2 k q) := by
  obtain ⟨-, -, e2, e3, -, -⟩ := block_positions t
  unfold iblk2
  rw [View.read_apply]
  refine congrArg (V c (Pipeline.arrRef spec2 1)) ?_
  funext a
  apply Fin.ext
  match a with
  | ⟨0, _⟩ => show win2_1.index t 0 * 128 + 1 * k.val = k.val; rw [e2]; omega
  | ⟨1, _⟩ => show win2_1.index t 1 * 128 + 1 * q.val = q.val; rw [e3]; omega

/-- The product of the two operand arrays as the call finds them. -/
abbrev product (c : Dev nD) : S50000x128.Idx → EReal :=
  matProd (m := 50000) (k := 128) (n := 128) (V c (Pipeline.arrRef spec2 0)) (V c (Pipeline.arrRef spec2 1))

/-- What point `t` writes back is block `t` of the product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := block_positions t
  have ht : t.val < 10 := lt_of_lt_of_eq t.isLt N_eq
  funext j
  obtain ⟨p, q, rfl⟩ : ∃ (p : Fin 5000) (q : Fin 128), j = ix2 p q := ⟨j 0, j 1, eq_ix2 j⟩
  have hrow : ((cfg2.win 2).blk t).view.emb (ix2 p q) = (ix2 (⟨t.val * 5000 + p.val, by have := p.isLt; omega⟩ : Fin 50000) q : S50000x128.Idx) := by
    funext a
    apply Fin.ext
    match a with
    | ⟨0, _⟩ => show win2_2.index t 0 * 5000 + 1 * p.val = t.val * 5000 + p.val; rw [e4]; omega
    | ⟨1, _⟩ => show win2_2.index t 1 * 128 + 1 * q.val = q.val; rw [e5]; omega
  show k2_pay1 (iblk2 V c 0 t) (iblk2 V c 1 t) (ix2 p q) = product V c (((cfg2.win 2).blk t).view.emb (ix2 p q))
  rw [hrow]
  refine (payload_apply (iblk2 V c 0 t) (iblk2 V c 1 t) p q).trans ?_
  refine Finset.sum_congr rfl fun k _ => ?_
  rw [left_block V c t p k ⟨t.val * 5000 + p.val, by have := p.isLt; omega⟩ rfl, right_block V c t k q]

/-- An index lies in point `t`'s block of the result exactly when its row lies in row block `t`. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v74).slice (win2_2.rect t)).set ↔ _
  rw [View.set_slice_whole, Rect.mem_set_unit]
  exact Iff.rfl

/-- The ten row blocks tile the result array, so after the call it holds the product. -/
theorem result_eq (c : Dev nD) : (dat2 V c).arrAt 2 cfg2.N = product V c :=
  (dat2 V c).arrAt_eq_of_cover 2 (product V c) (fun t _ => flushed_eq V c t) fun i => by
    have hi0 : (i 0).val < 50000 := (i 0).isLt
    have hi1 : (i 1).val < 128 := (i 1).isLt
    refine ⟨⟨(i 0).val / 5000, by rw [N_eq]; omega⟩, flush2_2 _, ?_⟩
    rw [mem_block]
    obtain ⟨-, -, -, -, e4, e5⟩ := block_positions ⟨(i 0).val / 5000, by rw [N_eq]; omega⟩
    intro a
    match a with
    | ⟨0, _⟩ => show win2_2.index _ 0 * 5000 ≤ (i 0).val ∧ (i 0).val < win2_2.index _ 0 * 5000 + 5000; rw [e4]; show (i 0).val / 5000 * 5000 ≤ (i 0).val ∧ (i 0).val < (i 0).val / 5000 * 5000 + 5000; omega
    | ⟨1, _⟩ => show win2_2.index _ 1 * 128 ≤ (i 1).val ∧ (i 1).val < win2_2.index _ 1 * 128 + 128; rw [e5]; omega

end Cert.KernelIdeal.Dense2

end
-- ==== Proof.LibDenseRelu.lean ====
/-
  A dense layer followed by a rectifier, read at an entry at the ideal values (the extended reals), for arbitrary
  extents, in the two spellings a program meets it in.

  * `hostBias_apply`: a bias vector `[n]` broadcast through a unit row `[1, n]` over `[m, n]` reads, at `(a, b)`,
    the vector's entry `b`.
  * `hostDenseRelu_apply`: the host's `max (A · B + bias) 0` — a `dot_general` of `[m, k]` by `[k, n]`, the bias
    broadcast as above, the zero a broadcast scalar constant — is, at `(a, b)`,
    `max (∑ c, A (a, c) * B (c, b) + bias b) 0`.
  * `vecDenseRelu_apply`: the vector unit's spelling — a `tpu.matmul` of the two operands, each first rounded to a
    narrower format (the identity on extended reals), into a zero accumulator, the bias a `[1, n]` row (behind an
    identity shape cast) broadcast over the rows, the zero a broadcast scalar — is the same expression with the bias
    row's entry `(0, b)`.
-/
import Idealize.ShloMosaic.Lib.Pipeline.Value
import Idealize.ShloMosaic.Lib.ValueIdx
import Idealize.ShloMosaic.Lib.ValueLayout
import Idealize.ShloMosaic.PureOps.Ideal.Laws
import proofs.«100255_j21234318311432_1_alg».proof.Proof.LibDenseLayers
import proofs.«100255_j21234318311432_1_alg».proof.Proof.LibHostMatmul

noncomputable section

namespace Idealize.ShloMosaic.DenseRelu

open Idealize.ShloMosaic Idealize.ShloMosaic.ValueIdx Idealize.ShloMosaic.DenseLayers

/-- A bias vector broadcast through a unit row over all rows reads its entry of the column. -/
theorem hostBias_apply {α : Type} {m n : ℕ} (bias : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    broadcastInDim ⟨2, ![m, n]⟩ ![0, 1] h2 (broadcastInDim ⟨2, ![1, n]⟩ ![1] h1 bias) (ix2 a b) = bias (ix1 b) := by
  refine (broadcastInDim_apply _ h2 _ (ix2 a b) (ix2 (0 : Fin 1) b) fun ax => ?_).trans
    (broadcastInDim_apply _ h1 bias (ix2 (0 : Fin 1) b) (ix1 b) fun ax => ?_)
  · match ax with
    | ⟨0, _⟩ => rfl
    | ⟨1, _⟩ =>
      show b.val = if n = 1 then 0 else b.val
      split
      · have := b.isLt; omega
      · rfl
  · match ax with
    | ⟨0, _⟩ =>
      show b.val = if n = 1 then 0 else b.val
      split
      · have := b.isLt; omega
      · rfl

/-- The host's dense layer with a rectifier, read at an entry. -/
theorem hostDenseRelu_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (bias : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![]) (a : Fin m) (b : Fin n) :
    maximumf (addf (Host.dotGeneral (⟨[1], [0], [0], [1], [], [], w⟩ : DotDims ⟨2, ![m, k]⟩ ⟨2, ![k, n]⟩ ⟨2, ![m, n]⟩) prec A B)
        (broadcastInDim ⟨2, ![m, n]⟩ ![0, 1] h2 (broadcastInDim ⟨2, ![1, n]⟩ ![1] h1 bias)))
      (broadcastInDim ⟨2, ![m, n]⟩ ![] h0 (constant (F := Ideal) ⟨0, ![]⟩ .f32 0x00000000#32)) (ix2 a b)
      = max (∑ c : Fin k, A (ix2 a c) * B (ix2 c b) + bias (ix1 b)) (Ideal.ofBits .f32 0x00000000#32) := by
  rw [maximumf_apply, addf_apply, dotGeneral_rowcol_apply, hostBias_apply, broadcastInDim_scalar_constant_apply]

/-- The vector unit's dense layer with a rectifier, read at an entry. -/
theorem vecDenseRelu_apply {m k n : ℕ} {ψ : FTy}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (hA : ψ.bits < FTy.f32.bits) (hB : ψ.bits < FTy.f32.bits)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (a : Fin m) (b : Fin n) :
    maximumf (addf (matmul (⟨[1], [0], [0], [1], [], [], w⟩ : DotDims ⟨2, ![m, k]⟩ ⟨2, ![k, n]⟩ ⟨2, ![m, n]⟩) prec
          (truncf ψ A hA) (truncf ψ B hB) (constant (F := Ideal) ⟨2, ![m, n]⟩ .f32 0x00000000#32))
        (broadcastTo ⟨2, ![m, n]⟩ (shapeCast ⟨2, ![1, n]⟩ bias hc) hb))
      (broadcast ⟨2, ![m, n]⟩ (Scalar.ofBits (F := Ideal) .f32 0x00000000#32)) (ix2 a b)
      = max (∑ c : Fin k, A (ix2 a c) * B (ix2 c b) + bias (ix2 (0 : Fin 1) b)) (Ideal.ofBits .f32 0x00000000#32) := by
  rw [maximumf_apply, addf_apply, matmul_rowcol_zero_apply, broadcastTo_1b_ab_apply, shapeCast_self]
  rfl

end Idealize.ShloMosaic.DenseRelu

end
-- ==== Proof.LibAffine.lean ====
/-
  Affine layers over the extended reals, entry by entry, for arbitrary extents.

  * `affine A B bias`: the matrix whose entry `(a, b)` is the sum over `c` of `A (a, c) * B (c, b)`, plus `bias b`.
  * `hostAffine_eq`: the host's spelling — a `dot_general` of `[m, k]` by `[k, n]`, plus the bias vector broadcast
    through a unit row over the rows — is `affine` of its operands at the ideal values.
  * `vecAffine_eq`: so is the vector unit's — a `tpu.matmul` into a zero accumulator, plus the bias vector cast to a
    `[1, n]` row and broadcast over the rows.
  No program imported.
-/
import Idealize.ShloMosaic.Lib.Pipeline.Value
import Idealize.ShloMosaic.Lib.ValueIdx
import Idealize.ShloMosaic.Lib.ValueLayout
import Idealize.ShloMosaic.PureOps.Ideal.Laws
import proofs.«100255_j21234318311432_1_alg».proof.Proof.LibMatProd
import proofs.«100255_j21234318311432_1_alg».proof.Proof.LibDenseRelu

noncomputable section

namespace Idealize.ShloMosaic.MatProd

open Idealize.ShloMosaic Idealize.ShloMosaic.ValueIdx

/-- A matrix product plus a bias vector added to every row. -/
def affine {m k n : ℕ} (A : (⟨2, ![m, k]⟩ : Shape).Idx → EReal) (B : (⟨2, ![k, n]⟩ : Shape).Idx → EReal)
    (bias : (⟨1, ![n]⟩ : Shape).Idx → EReal) : (⟨2, ![m, n]⟩ : Shape).Idx → EReal :=
  fun i => matProd A B i + bias (ix1 (i 1))

theorem affine_apply {m k n : ℕ} (A : (⟨2, ![m, k]⟩ : Shape).Idx → EReal) (B : (⟨2, ![k, n]⟩ : Shape).Idx → EReal)
    (bias : (⟨1, ![n]⟩ : Shape).Idx → EReal) (a : Fin m) (b : Fin n) :
    affine A B bias (ix2 a b) = ∑ c : Fin k, A (ix2 a c) * B (ix2 c b) + bias (ix1 b) := rfl

/-- The host's affine layer is `affine` of its operands. -/
theorem hostAffine_eq {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (bias : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    addf (Host.dotGeneral (⟨[1], [0], [0], [1], [], [], w⟩ : DotDims ⟨2, ![m, k]⟩ ⟨2, ![k, n]⟩ ⟨2, ![m, n]⟩) prec A B)
        (broadcastInDim ⟨2, ![m, n]⟩ ![0, 1] h2 (broadcastInDim ⟨2, ![1, n]⟩ ![1] h1 bias))
      = affine A B bias := by
  funext i
  obtain ⟨a, b, rfl⟩ : ∃ (a : Fin m) (b : Fin n), i = ix2 a b := ⟨i 0, i 1, eq_ix2 i⟩
  rw [addf_apply, DenseLayers.dotGeneral_rowcol_apply, DenseRelu.hostBias_apply]
  rfl

/-- The vector unit's affine layer is `affine` of its operands. -/
theorem vecAffine_eq {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (bias : FVec Ideal ⟨1, ![n]⟩ .f32) (hc : (⟨1, ![n]⟩ : Shape).ShapeCasts ⟨2, ![1, n]⟩)
    (hb : (⟨2, ![1, n]⟩ : Shape).Broadcasts ⟨2, ![m, n]⟩) :
    addf (matmul (⟨[1], [0], [0], [1], [], [], w⟩ : DotDims ⟨2, ![m, k]⟩ ⟨2, ![k, n]⟩ ⟨2, ![m, n]⟩) prec A B
          (constant (F := Ideal) ⟨2, ![m, n]⟩ .f32 0x00000000#32))
        (broadcastTo ⟨2, ![m, n]⟩ (shapeCast ⟨2, ![1, n]⟩ bias hc) hb)
      = affine A B bias := by
  funext i
  obtain ⟨a, b, rfl⟩ : ∃ (a : Fin m) (b : Fin n), i = ix2 a b := ⟨i 0, i 1, eq_ix2 i⟩
  rw [addf_apply, DenseLayers.matmul_rowcol_zero_apply, broadcastTo_1b_ab_apply, shapeCast_a_1a_apply]
  rfl

end Idealize.ShloMosaic.MatProd

end
-- ==== Proof.Dense3.lean ====
/-
  What the classifier call leaves in its result array: two affine layers, one after the other, of its five operand arrays
  as the call finds them. The call has one grid point, every window's block is its whole array, and the one write-back
  covers the result.
-/
import proofs.«100255_j21234318311432_1_alg».proof.Proof.Gen.KernelIdeal.Frame
import proofs.«100255_j21234318311432_1_alg».proof.Proof.LibAffine
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Idealize.ShloMosaic.MatProd

namespace Cert.KernelIdeal.Classifier

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's one stored value: the second affine layer of the first affine layer of the loaded blocks. -/
theorem payload_eq (x0 : Vec Ideal S256x128 .bf16) (x1 : Vec Ideal S128x128 .bf16) (x2 : Vec Ideal S128 .f32)
    (x3 : Vec Ideal S128x10 .bf16) (x4 : Vec Ideal S10 .f32) :
    k3_pay1 x0 x1 x2 x3 x4 = affine (m := 256) (k := 128) (n := 10) (affine (m := 256) (k := 128) (n := 128) x0 x1 x2) x3 x4 := by
  unfold k3_pay1
  simp only [shapeCast_self]
  have first := vecAffine_eq (φ₁ := .bf16) (φ₂ := .bf16) dot_S256x128_S128x128_S256x128_1_0_0_1_n_n_wf none x0 x1 x2 shapeCasts_S128_S1x128 broadcasts_S1x128_S256x128
  refine (vecAffine_eq (φ₁ := .bf16) (φ₂ := .bf16) dot_S256x128_S128x10_S256x10_1_0_0_1_n_n_wf none _ x3 x4 shapeCasts_S10_S1x10 broadcasts_S1x10_S256x10).trans ?_
  exact congrArg (fun A => affine (m := 256) (k := 128) (n := 10) A x3 x4) first

/-- Every window's block sits at the origin. -/
theorem block_positions : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

theorem block0 (c : Dev nD) (t : Fin cfg3.N) :
    (iblk3 V c 0 t : Vec Ideal S256x128 .bf16) = (V c (Pipeline.arrRef spec3 0) : S256x128.Idx → EReal) := by
  obtain ⟨e0, e1, -⟩ := block_positions t
  funext j
  unfold iblk3
  rw [View.read_apply]
  refine congrArg (V c (Pipeline.arrRef spec3 0)) ?_
  funext a
  apply Fin.ext
  match a with
  | ⟨0, _⟩ => show win3_0.index t 0 * 256 + 1 * (j 0).val = (j 0).val; rw [e0]; omega
  | ⟨1, _⟩ => show win3_0.index t 1 * 128 + 1 * (j 1).val = (j 1).val; rw [e1]; omega

theorem block1 (c : Dev nD) (t : Fin cfg3.N) :
    (iblk3 V c 1 t : Vec Ideal S128x128 .bf16) = (V c (Pipeline.arrRef spec3 1) : S128x128.Idx → EReal) := by
  obtain ⟨-, -, e0, e1, -⟩ := block_positions t
  funext j
  unfold iblk3
  rw [View.read_apply]
  refine congrArg (V c (Pipeline.arrRef spec3 1)) ?_
  funext a
  apply Fin.ext
  match a with
  | ⟨0, _⟩ => show win3_1.index t 0 * 128 + 1 * (j 0).val = (j 0).val; rw [e0]; omega
  | ⟨1, _⟩ => show win3_1.index t 1 * 128 + 1 * (j 1).val = (j 1).val; rw [e1]; omega

theorem block2 (c : Dev nD) (t : Fin cfg3.N) :
    (iblk3 V c 2 t : Vec Ideal S128 .f32) = (V c (Pipeline.arrRef spec3 2) : S128.Idx → EReal) := by
  obtain ⟨-, -, -, -, e0, -⟩ := block_positions t
  funext j
  unfold iblk3
  rw [View.read_apply]
  refine congrArg (V c (Pipeline.arrRef spec3 2)) ?_
  funext a
  apply Fin.ext
  match a with
  | ⟨0, _⟩ => show win3_2.index t 0 * 128 + 1 * (j 0).val = (j 0).val; rw [e0]; omega

theorem block3 (c : Dev nD) (t : Fin cfg3.N) :
    (iblk3 V c 3 t : Vec Ideal S128x10 .bf16) = (V c (Pipeline.arrRef spec3 3) : S128x10.Idx → EReal) := by
  obtain ⟨-, -, -, -, -, e0, e1, -⟩ := block_positions t
  funext j
  unfold iblk3
  rw [View.read_apply]
  refine congrArg (V c (Pipeline.arrRef spec3 3)) ?_
  funext a
  apply Fin.ext
  match a with
  | ⟨0, _⟩ => show win3_3.index t 0 * 128 + 1 * (j 0).val = (j 0).val; rw [e0]; omega
  | ⟨1, _⟩ => show win3_3.index t 1 * 10 + 1 * (j 1).val = (j 1).val; rw [e1]; omega

theorem block4 (c : Dev nD) (t : Fin cfg3.N) :
    (iblk3 V c 4 t : Vec Ideal S10 .f32) = (V c (Pipeline.arrRef spec3 4) : S10.Idx → EReal) := by
  obtain ⟨-, -, -, -, -, -, -, e0, -⟩ := block_positions t
  funext j
  unfold iblk3
  rw [View.read_apply]
  refine congrArg (V c (Pipeline.arrRef spec3 4)) ?_
  funext a
  apply Fin.ext
  match a with
  | ⟨0, _⟩ => show win3_4.index t 0 * 10 + 1 * (j 0).val = (j 0).val; rw [e0]; omega

/-- The two affine layers of the five operand arrays as the call finds them. -/
abbrev logits (c : Dev nD) : S256x10.Idx → EReal :=
  affine (m := 256) (k := 128) (n := 10)
    (affine (m := 256) (k := 128) (n := 128) (V c (Pipeline.arrRef spec3 0)) (V c (Pipeline.arrRef spec3 1)) (V c (Pipeline.arrRef spec3 2)))
    (V c (Pipeline.arrRef spec3 3)) (V c (Pipeline.arrRef spec3 4))

/-- What the one point writes back is the whole of `logits`. -/
theorem flushed_eq (c : Dev nD) (t : Fin cfg3.N) :
    (dat3 V c).flushed 5 t = ((cfg3.win 5).blk t).view.read (Elt Ideal) (logits V c) := by
  show (cfg3.win 5).cut (grid3.coords t) ((dat3 V c).after 5 t) = _
  rw [after3_5]
  unfold out3_5
  rw [View.canon_unit_zero hz2]
  simp only [View.ld_unit_zero (S := S256x128) hz2, View.ld_unit_zero (S := S128x128) hz2, View.ld_unit_zero (S := S128) hz1,
    View.ld_unit_zero (S := S128x10) hz2, View.ld_unit_zero (S := S10) hz1]
  obtain ⟨-, -, -, -, -, -, -, -, e0, e1⟩ := block_positions t
  funext j
  have hemb : ((cfg3.win 5).blk t).view.emb j = (j : S256x10.Idx) := by
    funext a
    apply Fin.ext
    match a with
    | ⟨0, _⟩ => show win3_5.index t 0 * 256 + 1 * (j 0).val = (j 0).val; rw [e0]; omega
    | ⟨1, _⟩ => show win3_5.index t 1 * 10 + 1 * (j 1).val = (j 1).val; rw [e1]; omega
  show k3_pay1 (iblk3 V c 0 t) (iblk3 V c 1 t) (iblk3 V c 2 t) (iblk3 V c 3 t) (iblk3 V c 4 t) j = logits V c (((cfg3.win 5).blk t).view.emb j)
  rw [hemb]
  refine (congrFun (payload_eq (iblk3 V c 0 t) (iblk3 V c 1 t) (iblk3 V c 2 t) (iblk3 V c 3 t) (iblk3 V c 4 t)) j).trans ?_
  rw [block0 V c t, block1 V c t, block2 V c t, block3 V c t, block4 V c t]

/-- An index lies in the point's block of the result exactly when each coordinate lies in the block's range. -/
theorem mem_block (t : Fin cfg3.N) (i : S256x10.Idx) :
    i ∈ ((cfg3.win 5).blk t).view.set ↔ ∀ a : Fin 2, win3_5.index t a * S256x10.size a ≤ (i a).val ∧ (i a).val < win3_5.index t a * S256x10.size a + S256x10.size a := by
  show i ∈ ((View.whole main_v106).slice (win3_5.rect t)).set ↔ _
  rw [View.set_slice_whole, Rect.mem_set_unit]
  exact Iff.rfl

/-- The one block is the whole result array, so after the call it holds `logits`. -/
theorem result_eq (c : Dev nD) : (dat3 V c).arrAt 5 cfg3.N = logits V c :=
  (dat3 V c).arrAt_eq_of_cover 5 (logits V c) (fun t _ => flushed_eq V c t) fun i => by
    have hi0 : (i 0).val < 256 := (i 0).isLt
    have hi1 : (i 1).val < 10 := (i 1).isLt
    refine ⟨t3_0, flush3_5 _, ?_⟩
    rw [mem_block]
    obtain ⟨-, -, -, -, -, -, -, -, e0, e1⟩ := block_positions t3_0
    intro a
    match a with
    | ⟨0, _⟩ => show win3_5.index _ 0 * 256 ≤ (i 0).val ∧ (i 0).val < win3_5.index _ 0 * 256 + 256; rw [e0]; omega
    | ⟨1, _⟩ => show win3_5.index _ 1 * 10 ≤ (i 1).val ∧ (i 1).val < win3_5.index _ 1 * 10 + 10; rw [e1]; omega

end Cert.KernelIdeal.Classifier

end
-- ==== Proof.KernelValue.lean ====
/-
  The kernel program's buffers of interest at each boundary of its fold of host stretches and dense calls, as the
  reference's stage values of the argument arrays. A buffer no operation of a stretch writes keeps its contents, and a
  dense call changes only its own result array; so the edge endpoints, the edge norm and the argument arrays are carried
  from where they are made to where they are read, each dense call's result is the product the reference computes on the
  host, and each stretch between them continues the reference's stages.
-/
import proofs.«100255_j21234318311432_1_alg».proof.Proof.Gen.KernelIdeal.Frame
import proofs.«100255_j21234318311432_1_alg».proof.Proof.Gen.ReferenceIdeal.Read
import proofs.«100255_j21234318311432_1_alg».proof.Proof.HostStretches
import proofs.«100255_j21234318311432_1_alg».proof.Proof.ReferenceLayers
import proofs.«100255_j21234318311432_1_alg».proof.Proof.Dense0
import proofs.«100255_j21234318311432_1_alg».proof.Proof.Dense1
import proofs.«100255_j21234318311432_1_alg».proof.Proof.Dense2
import proofs.«100255_j21234318311432_1_alg».proof.Proof.Dense3
import proofs.«100255_j21234318311432_1_alg».proof.Proof.LibAffine

set_option maxRecDepth 16384

noncomputable section

open Idealize.ShloMosaic Idealize.ShloMosaic.TcCoe Idealize.SL.Sem Idealize.ShloMosaic.StableHlo
open Idealize.ShloMosaic.MatProd

namespace Cert.KernelIdeal.Chain

open Cert.KernelIdeal Cert.KernelIdeal.Gen Cert.ReferenceIdeal.Read

variable (m : (ℓ : Loc nD τ sig) → Buf (Elt Ideal) ℓ) (ρ : Dev nD → PrngReg) (c : Dev nD)

/-- Argument 0 as launched. -/
abbrev a0 : (⟨Cert.ReferenceIdeal.S50000x128, .f32⟩ : BufTy).Contents (Elt Ideal) := m ((c.tc : Thread nD τ).loc main_arg0)
/-- Argument 1 as launched. -/
abbrev a1 : (⟨Cert.ReferenceIdeal.S2x1600000, .i32⟩ : BufTy).Contents (Elt Ideal) := m ((c.tc : Thread nD τ).loc main_arg1)
/-- Argument 2 as launched. -/
abbrev a2 : (⟨Cert.ReferenceIdeal.S1600000, .f32⟩ : BufTy).Contents (Elt Ideal) := m ((c.tc : Thread nD τ).loc main_arg2)
/-- Argument 3 as launched. -/
abbrev a3 : (⟨Cert.ReferenceIdeal.S50000, .i32⟩ : BufTy).Contents (Elt Ideal) := m ((c.tc : Thread nD τ).loc main_arg3)
/-- Argument 4 as launched. -/
abbrev a4 : (⟨Cert.ReferenceIdeal.S128x128, .f32⟩ : BufTy).Contents (Elt Ideal) := m ((c.tc : Thread nD τ).loc main_arg4)
/-- Argument 5 as launched. -/
abbrev a5 : (⟨Cert.ReferenceIdeal.S128, .f32⟩ : BufTy).Contents (Elt Ideal) := m ((c.tc : Thread nD τ).loc main_arg5)
/-- Argument 6 as launched. -/
abbrev a6 : (⟨Cert.ReferenceIdeal.S128x128, .f32⟩ : BufTy).Contents (Elt Ideal) := m ((c.tc : Thread nD τ).loc main_arg6)
/-- Argument 7 as launched. -/
abbrev a7 : (⟨Cert.ReferenceIdeal.S128, .f32⟩ : BufTy).Contents (Elt Ideal) := m ((c.tc : Thread nD τ).loc main_arg7)
/-- Argument 8 as launched. -/
abbrev a8 : (⟨Cert.ReferenceIdeal.S128x128, .f32⟩ : BufTy).Contents (Elt Ideal) := m ((c.tc : Thread nD τ).loc main_arg8)
/-- Argument 9 as launched. -/
abbrev a9 : (⟨Cert.ReferenceIdeal.S128, .f32⟩ : BufTy).Contents (Elt Ideal) := m ((c.tc : Thread nD τ).loc main_arg9)
/-- Argument 10 as launched. -/
abbrev a10 : (⟨Cert.ReferenceIdeal.S128x128, .f32⟩ : BufTy).Contents (Elt Ideal) := m ((c.tc : Thread nD τ).loc main_arg10)
/-- Argument 11 as launched. -/
abbrev a11 : (⟨Cert.ReferenceIdeal.S128, .f32⟩ : BufTy).Contents (Elt Ideal) := m ((c.tc : Thread nD τ).loc main_arg11)
/-- Argument 12 as launched. -/
abbrev a12 : (⟨Cert.ReferenceIdeal.S128x10, .f32⟩ : BufTy).Contents (Elt Ideal) := m ((c.tc : Thread nD τ).loc main_arg12)
/-- Argument 13 as launched. -/
abbrev a13 : (⟨Cert.ReferenceIdeal.S10, .f32⟩ : BufTy).Contents (Elt Ideal) := m ((c.tc : Thread nD τ).loc main_arg13)

/-! ## What is carried: buffers no stretch in between writes, and buffers a dense call does not own -/

theorem keepA_arg3 : W3 (F := Ideal) m ρ c (Proc.devRef .tc main_arg3) = W0 (F := Ideal) m ρ c (Proc.devRef .tc main_arg3) := by
  show StableHlo.after hostOps0_2 (StableHlo.after hostOps0_1 (StableHlo.after hostOps0 (W0 m ρ c))) (Proc.devRef .tc main_arg3) = _
  after_results_simp
theorem keepA_arg5 : W3 (F := Ideal) m ρ c (Proc.devRef .tc main_arg5) = W0 (F := Ideal) m ρ c (Proc.devRef .tc main_arg5) := by
  show StableHlo.after hostOps0_2 (StableHlo.after hostOps0_1 (StableHlo.after hostOps0 (W0 m ρ c))) (Proc.devRef .tc main_arg5) = _
  after_results_simp
theorem keepA_arg6 : W3 (F := Ideal) m ρ c (Proc.devRef .tc main_arg6) = W0 (F := Ideal) m ρ c (Proc.devRef .tc main_arg6) := by
  show StableHlo.after hostOps0_2 (StableHlo.after hostOps0_1 (StableHlo.after hostOps0 (W0 m ρ c))) (Proc.devRef .tc main_arg6) = _
  after_results_simp
theorem keepA_arg7 : W3 (F := Ideal) m ρ c (Proc.devRef .tc main_arg7) = W0 (F := Ideal) m ρ c (Proc.devRef .tc main_arg7) := by
  show StableHlo.after hostOps0_2 (StableHlo.after hostOps0_1 (StableHlo.after hostOps0 (W0 m ρ c))) (Proc.devRef .tc main_arg7) = _
  after_results_simp
theorem keepA_arg8 : W3 (F := Ideal) m ρ c (Proc.devRef .tc main_arg8) = W0 (F := Ideal) m ρ c (Proc.devRef .tc main_arg8) := by
  show StableHlo.after hostOps0_2 (StableHlo.after hostOps0_1 (StableHlo.after hostOps0 (W0 m ρ c))) (Proc.devRef .tc main_arg8) = _
  after_results_simp
theorem keepA_arg9 : W3 (F := Ideal) m ρ c (Proc.devRef .tc main_arg9) = W0 (F := Ideal) m ρ c (Proc.devRef .tc main_arg9) := by
  show StableHlo.after hostOps0_2 (StableHlo.after hostOps0_1 (StableHlo.after hostOps0 (W0 m ρ c))) (Proc.devRef .tc main_arg9) = _
  after_results_simp
theorem keepA_arg10 : W3 (F := Ideal) m ρ c (Proc.devRef .tc main_arg10) = W0 (F := Ideal) m ρ c (Proc.devRef .tc main_arg10) := by
  show StableHlo.after hostOps0_2 (StableHlo.after hostOps0_1 (StableHlo.after hostOps0 (W0 m ρ c))) (Proc.devRef .tc main_arg10) = _
  after_results_simp
theorem keepA_arg11 : W3 (F := Ideal) m ρ c (Proc.devRef .tc main_arg11) = W0 (F := Ideal) m ρ c (Proc.devRef .tc main_arg11) := by
  show StableHlo.after hostOps0_2 (StableHlo.after hostOps0_1 (StableHlo.after hostOps0 (W0 m ρ c))) (Proc.devRef .tc main_arg11) = _
  after_results_simp
theorem keepA_arg12 : W3 (F := Ideal) m ρ c (Proc.devRef .tc main_arg12) = W0 (F := Ideal) m ρ c (Proc.devRef .tc main_arg12) := by
  show StableHlo.after hostOps0_2 (StableHlo.after hostOps0_1 (StableHlo.after hostOps0 (W0 m ρ c))) (Proc.devRef .tc main_arg12) = _
  after_results_simp
theorem keepA_arg13 : W3 (F := Ideal) m ρ c (Proc.devRef .tc main_arg13) = W0 (F := Ideal) m ρ c (Proc.devRef .tc main_arg13) := by
  show StableHlo.after hostOps0_2 (StableHlo.after hostOps0_1 (StableHlo.after hostOps0 (W0 m ρ c))) (Proc.devRef .tc main_arg13) = _
  after_results_simp
theorem keepA2_arg0 : W2 (F := Ideal) m ρ c (Proc.devRef .tc main_arg0) = W0 (F := Ideal) m ρ c (Proc.devRef .tc main_arg0) := by
  show StableHlo.after hostOps0_1 (StableHlo.after hostOps0 (W0 m ρ c)) (Proc.devRef .tc main_arg0) = _
  after_results_simp
theorem keepA2_arg4 : W2 (F := Ideal) m ρ c (Proc.devRef .tc main_arg4) = W0 (F := Ideal) m ρ c (Proc.devRef .tc main_arg4) := by
  show StableHlo.after hostOps0_1 (StableHlo.after hostOps0 (W0 m ρ c)) (Proc.devRef .tc main_arg4) = _
  after_results_simp
theorem keepA2_v5 : W2 (F := Ideal) m ρ c (Proc.devRef .tc main_v5) = W1 (F := Ideal) m ρ c (Proc.devRef .tc main_v5) := by
  show StableHlo.after hostOps0_1 (W1 m ρ c) (Proc.devRef .tc main_v5) = _
  after_results_simp
theorem keepA2_v6 : W2 (F := Ideal) m ρ c (Proc.devRef .tc main_v6) = W1 (F := Ideal) m ρ c (Proc.devRef .tc main_v6) := by
  show StableHlo.after hostOps0_1 (W1 m ρ c) (Proc.devRef .tc main_v6) = _
  after_results_simp
theorem keepA2_v8 : W2 (F := Ideal) m ρ c (Proc.devRef .tc main_v8) = W1 (F := Ideal) m ρ c (Proc.devRef .tc main_v8) := by
  show StableHlo.after hostOps0_1 (W1 m ρ c) (Proc.devRef .tc main_v8) = _
  after_results_simp
theorem keepA3_v5 : W3 (F := Ideal) m ρ c (Proc.devRef .tc main_v5) = W1 (F := Ideal) m ρ c (Proc.devRef .tc main_v5) := by
  show StableHlo.after hostOps0_2 (StableHlo.after hostOps0_1 (W1 m ρ c)) (Proc.devRef .tc main_v5) = _
  after_results_simp
theorem keepA3_v6 : W3 (F := Ideal) m ρ c (Proc.devRef .tc main_v6) = W1 (F := Ideal) m ρ c (Proc.devRef .tc main_v6) := by
  show StableHlo.after hostOps0_2 (StableHlo.after hostOps0_1 (W1 m ρ c)) (Proc.devRef .tc main_v6) = _
  after_results_simp
theorem keepR0_v5 : W4 (F := Ideal) m ρ c (Proc.devRef .tc main_v5) = W3 (F := Ideal) m ρ c (Proc.devRef .tc main_v5) := W4_of_ne m ρ c main_v5 (by decide)
theorem keepR0_v6 : W4 (F := Ideal) m ρ c (Proc.devRef .tc main_v6) = W3 (F := Ideal) m ρ c (Proc.devRef .tc main_v6) := W4_of_ne m ρ c main_v6 (by decide)
theorem keepR0_v31 : W4 (F := Ideal) m ρ c (Proc.devRef .tc main_v31) = W3 (F := Ideal) m ρ c (Proc.devRef .tc main_v31) := W4_of_ne m ρ c main_v31 (by decide)
theorem keepR0_arg3 : W4 (F := Ideal) m ρ c (Proc.devRef .tc main_arg3) = W3 (F := Ideal) m ρ c (Proc.devRef .tc main_arg3) := W4_of_ne m ρ c main_arg3 (by decide)
theorem keepR0_arg5 : W4 (F := Ideal) m ρ c (Proc.devRef .tc main_arg5) = W3 (F := Ideal) m ρ c (Proc.devRef .tc main_arg5) := W4_of_ne m ρ c main_arg5 (by decide)
theorem keepR0_arg6 : W4 (F := Ideal) m ρ c (Proc.devRef .tc main_arg6) = W3 (F := Ideal) m ρ c (Proc.devRef .tc main_arg6) := W4_of_ne m ρ c main_arg6 (by decide)
theorem keepR0_arg7 : W4 (F := Ideal) m ρ c (Proc.devRef .tc main_arg7) = W3 (F := Ideal) m ρ c (Proc.devRef .tc main_arg7) := W4_of_ne m ρ c main_arg7 (by decide)
theorem keepR0_arg8 : W4 (F := Ideal) m ρ c (Proc.devRef .tc main_arg8) = W3 (F := Ideal) m ρ c (Proc.devRef .tc main_arg8) := W4_of_ne m ρ c main_arg8 (by decide)
theorem keepR0_arg9 : W4 (F := Ideal) m ρ c (Proc.devRef .tc main_arg9) = W3 (F := Ideal) m ρ c (Proc.devRef .tc main_arg9) := W4_of_ne m ρ c main_arg9 (by decide)
theorem keepR0_arg10 : W4 (F := Ideal) m ρ c (Proc.devRef .tc main_arg10) = W3 (F := Ideal) m ρ c (Proc.devRef .tc main_arg10) := W4_of_ne m ρ c main_arg10 (by decide)
theorem keepR0_arg11 : W4 (F := Ideal) m ρ c (Proc.devRef .tc main_arg11) = W3 (F := Ideal) m ρ c (Proc.devRef .tc main_arg11) := W4_of_ne m ρ c main_arg11 (by decide)
theorem keepR0_arg12 : W4 (F := Ideal) m ρ c (Proc.devRef .tc main_arg12) = W3 (F := Ideal) m ρ c (Proc.devRef .tc main_arg12) := W4_of_ne m ρ c main_arg12 (by decide)
theorem keepR0_arg13 : W4 (F := Ideal) m ρ c (Proc.devRef .tc main_arg13) = W3 (F := Ideal) m ρ c (Proc.devRef .tc main_arg13) := W4_of_ne m ρ c main_arg13 (by decide)
theorem keepB_v5 : W7 (F := Ideal) m ρ c (Proc.devRef .tc main_v5) = W4 (F := Ideal) m ρ c (Proc.devRef .tc main_v5) := by
  show StableHlo.after hostOps1_2 (StableHlo.after hostOps1_1 (StableHlo.after hostOps1 (W4 m ρ c))) (Proc.devRef .tc main_v5) = _
  after_results_simp
theorem keepB_v6 : W7 (F := Ideal) m ρ c (Proc.devRef .tc main_v6) = W4 (F := Ideal) m ρ c (Proc.devRef .tc main_v6) := by
  show StableHlo.after hostOps1_2 (StableHlo.after hostOps1_1 (StableHlo.after hostOps1 (W4 m ρ c))) (Proc.devRef .tc main_v6) = _
  after_results_simp
theorem keepB_v31 : W7 (F := Ideal) m ρ c (Proc.devRef .tc main_v31) = W4 (F := Ideal) m ρ c (Proc.devRef .tc main_v31) := by
  show StableHlo.after hostOps1_2 (StableHlo.after hostOps1_1 (StableHlo.after hostOps1 (W4 m ρ c))) (Proc.devRef .tc main_v31) = _
  after_results_simp
theorem keepB_arg3 : W7 (F := Ideal) m ρ c (Proc.devRef .tc main_arg3) = W4 (F := Ideal) m ρ c (Proc.devRef .tc main_arg3) := by
  show StableHlo.after hostOps1_2 (StableHlo.after hostOps1_1 (StableHlo.after hostOps1 (W4 m ρ c))) (Proc.devRef .tc main_arg3) = _
  after_results_simp
theorem keepB_arg7 : W7 (F := Ideal) m ρ c (Proc.devRef .tc main_arg7) = W4 (F := Ideal) m ρ c (Proc.devRef .tc main_arg7) := by
  show StableHlo.after hostOps1_2 (StableHlo.after hostOps1_1 (StableHlo.after hostOps1 (W4 m ρ c))) (Proc.devRef .tc main_arg7) = _
  after_results_simp
theorem keepB_arg8 : W7 (F := Ideal) m ρ c (Proc.devRef .tc main_arg8) = W4 (F := Ideal) m ρ c (Proc.devRef .tc main_arg8) := by
  show StableHlo.after hostOps1_2 (StableHlo.after hostOps1_1 (StableHlo.after hostOps1 (W4 m ρ c))) (Proc.devRef .tc main_arg8) = _
  after_results_simp
theorem keepB_arg9 : W7 (F := Ideal) m ρ c (Proc.devRef .tc main_arg9) = W4 (F := Ideal) m ρ c (Proc.devRef .tc main_arg9) := by
  show StableHlo.after hostOps1_2 (StableHlo.after hostOps1_1 (StableHlo.after hostOps1 (W4 m ρ c))) (Proc.devRef .tc main_arg9) = _
  after_results_simp
theorem keepB_arg10 : W7 (F := Ideal) m ρ c (Proc.devRef .tc main_arg10) = W4 (F := Ideal) m ρ c (Proc.devRef .tc main_arg10) := by
  show StableHlo.after hostOps1_2 (StableHlo.after hostOps1_1 (StableHlo.after hostOps1 (W4 m ρ c))) (Proc.devRef .tc main_arg10) = _
  after_results_simp
theorem keepB_arg11 : W7 (F := Ideal) m ρ c (Proc.devRef .tc main_arg11) = W4 (F := Ideal) m ρ c (Proc.devRef .tc main_arg11) := by
  show StableHlo.after hostOps1_2 (StableHlo.after hostOps1_1 (StableHlo.after hostOps1 (W4 m ρ c))) (Proc.devRef .tc main_arg11) = _
  after_results_simp
theorem keepB_arg12 : W7 (F := Ideal) m ρ c (Proc.devRef .tc main_arg12) = W4 (F := Ideal) m ρ c (Proc.devRef .tc main_arg12) := by
  show StableHlo.after hostOps1_2 (StableHlo.after hostOps1_1 (StableHlo.after hostOps1 (W4 m ρ c))) (Proc.devRef .tc main_arg12) = _
  after_results_simp
theorem keepB_arg13 : W7 (F := Ideal) m ρ c (Proc.devRef .tc main_arg13) = W4 (F := Ideal) m ρ c (Proc.devRef .tc main_arg13) := by
  show StableHlo.after hostOps1_2 (StableHlo.after hostOps1_1 (StableHlo.after hostOps1 (W4 m ρ c))) (Proc.devRef .tc main_arg13) = _
  after_results_simp
theorem keepB6_arg6 : W6 (F := Ideal) m ρ c (Proc.devRef .tc main_arg6) = W4 (F := Ideal) m ρ c (Proc.devRef .tc main_arg6) := by
  show StableHlo.after hostOps1_1 (StableHlo.after hostOps1 (W4 m ρ c)) (Proc.devRef .tc main_arg6) = _
  after_results_simp
theorem keepR1_v5 : W8 (F := Ideal) m ρ c (Proc.devRef .tc main_v5) = W7 (F := Ideal) m ρ c (Proc.devRef .tc main_v5) := W8_of_ne m ρ c main_v5 (by decide)
theorem keepR1_v6 : W8 (F := Ideal) m ρ c (Proc.devRef .tc main_v6) = W7 (F := Ideal) m ρ c (Proc.devRef .tc main_v6) := W8_of_ne m ρ c main_v6 (by decide)
theorem keepR1_v31 : W8 (F := Ideal) m ρ c (Proc.devRef .tc main_v31) = W7 (F := Ideal) m ρ c (Proc.devRef .tc main_v31) := W8_of_ne m ρ c main_v31 (by decide)
theorem keepR1_arg3 : W8 (F := Ideal) m ρ c (Proc.devRef .tc main_arg3) = W7 (F := Ideal) m ρ c (Proc.devRef .tc main_arg3) := W8_of_ne m ρ c main_arg3 (by decide)
theorem keepR1_arg7 : W8 (F := Ideal) m ρ c (Proc.devRef .tc main_arg7) = W7 (F := Ideal) m ρ c (Proc.devRef .tc main_arg7) := W8_of_ne m ρ c main_arg7 (by decide)
theorem keepR1_arg8 : W8 (F := Ideal) m ρ c (Proc.devRef .tc main_arg8) = W7 (F := Ideal) m ρ c (Proc.devRef .tc main_arg8) := W8_of_ne m ρ c main_arg8 (by decide)
theorem keepR1_arg9 : W8 (F := Ideal) m ρ c (Proc.devRef .tc main_arg9) = W7 (F := Ideal) m ρ c (Proc.devRef .tc main_arg9) := W8_of_ne m ρ c main_arg9 (by decide)
theorem keepR1_arg10 : W8 (F := Ideal) m ρ c (Proc.devRef .tc main_arg10) = W7 (F := Ideal) m ρ c (Proc.devRef .tc main_arg10) := W8_of_ne m ρ c main_arg10 (by decide)
theorem keepR1_arg11 : W8 (F := Ideal) m ρ c (Proc.devRef .tc main_arg11) = W7 (F := Ideal) m ρ c (Proc.devRef .tc main_arg11) := W8_of_ne m ρ c main_arg11 (by decide)
theorem keepR1_arg12 : W8 (F := Ideal) m ρ c (Proc.devRef .tc main_arg12) = W7 (F := Ideal) m ρ c (Proc.devRef .tc main_arg12) := W8_of_ne m ρ c main_arg12 (by decide)
theorem keepR1_arg13 : W8 (F := Ideal) m ρ c (Proc.devRef .tc main_arg13) = W7 (F := Ideal) m ρ c (Proc.devRef .tc main_arg13) := W8_of_ne m ρ c main_arg13 (by decide)
theorem keepC_v5 : W11 (F := Ideal) m ρ c (Proc.devRef .tc main_v5) = W8 (F := Ideal) m ρ c (Proc.devRef .tc main_v5) := by
  show StableHlo.after hostOps2_2 (StableHlo.after hostOps2_1 (StableHlo.after hostOps2 (W8 m ρ c))) (Proc.devRef .tc main_v5) = _
  after_results_simp
theorem keepC_v6 : W11 (F := Ideal) m ρ c (Proc.devRef .tc main_v6) = W8 (F := Ideal) m ρ c (Proc.devRef .tc main_v6) := by
  show StableHlo.after hostOps2_2 (StableHlo.after hostOps2_1 (StableHlo.after hostOps2 (W8 m ρ c))) (Proc.devRef .tc main_v6) = _
  after_results_simp
theorem keepC_v31 : W11 (F := Ideal) m ρ c (Proc.devRef .tc main_v31) = W8 (F := Ideal) m ρ c (Proc.devRef .tc main_v31) := by
  show StableHlo.after hostOps2_2 (StableHlo.after hostOps2_1 (StableHlo.after hostOps2 (W8 m ρ c))) (Proc.devRef .tc main_v31) = _
  after_results_simp
theorem keepC_arg3 : W11 (F := Ideal) m ρ c (Proc.devRef .tc main_arg3) = W8 (F := Ideal) m ρ c (Proc.devRef .tc main_arg3) := by
  show StableHlo.after hostOps2_2 (StableHlo.after hostOps2_1 (StableHlo.after hostOps2 (W8 m ρ c))) (Proc.devRef .tc main_arg3) = _
  after_results_simp
theorem keepC_arg9 : W11 (F := Ideal) m ρ c (Proc.devRef .tc main_arg9) = W8 (F := Ideal) m ρ c (Proc.devRef .tc main_arg9) := by
  show StableHlo.after hostOps2_2 (StableHlo.after hostOps2_1 (StableHlo.after hostOps2 (W8 m ρ c))) (Proc.devRef .tc main_arg9) = _
  after_results_simp
theorem keepC_arg10 : W11 (F := Ideal) m ρ c (Proc.devRef .tc main_arg10) = W8 (F := Ideal) m ρ c (Proc.devRef .tc main_arg10) := by
  show StableHlo.after hostOps2_2 (StableHlo.after hostOps2_1 (StableHlo.after hostOps2 (W8 m ρ c))) (Proc.devRef .tc main_arg10) = _
  after_results_simp
theorem keepC_arg11 : W11 (F := Ideal) m ρ c (Proc.devRef .tc main_arg11) = W8 (F := Ideal) m ρ c (Proc.devRef .tc main_arg11) := by
  show StableHlo.after hostOps2_2 (StableHlo.after hostOps2_1 (StableHlo.after hostOps2 (W8 m ρ c))) (Proc.devRef .tc main_arg11) = _
  after_results_simp
theorem keepC_arg12 : W11 (F := Ideal) m ρ c (Proc.devRef .tc main_arg12) = W8 (F := Ideal) m ρ c (Proc.devRef .tc main_arg12) := by
  show StableHlo.after hostOps2_2 (StableHlo.after hostOps2_1 (StableHlo.after hostOps2 (W8 m ρ c))) (Proc.devRef .tc main_arg12) = _
  after_results_simp
theorem keepC_arg13 : W11 (F := Ideal) m ρ c (Proc.devRef .tc main_arg13) = W8 (F := Ideal) m ρ c (Proc.devRef .tc main_arg13) := by
  show StableHlo.after hostOps2_2 (StableHlo.after hostOps2_1 (StableHlo.after hostOps2 (W8 m ρ c))) (Proc.devRef .tc main_arg13) = _
  after_results_simp
theorem keepC10_arg8 : W10 (F := Ideal) m ρ c (Proc.devRef .tc main_arg8) = W8 (F := Ideal) m ρ c (Proc.devRef .tc main_arg8) := by
  show StableHlo.after hostOps2_1 (StableHlo.after hostOps2 (W8 m ρ c)) (Proc.devRef .tc main_arg8) = _
  after_results_simp
theorem keepR2_v5 : W12 (F := Ideal) m ρ c (Proc.devRef .tc main_v5) = W11 (F := Ideal) m ρ c (Proc.devRef .tc main_v5) := W12_of_ne m ρ c main_v5 (by decide)
theorem keepR2_v6 : W12 (F := Ideal) m ρ c (Proc.devRef .tc main_v6) = W11 (F := Ideal) m ρ c (Proc.devRef .tc main_v6) := W12_of_ne m ρ c main_v6 (by decide)
theorem keepR2_v31 : W12 (F := Ideal) m ρ c (Proc.devRef .tc main_v31) = W11 (F := Ideal) m ρ c (Proc.devRef .tc main_v31) := W12_of_ne m ρ c main_v31 (by decide)
theorem keepR2_arg3 : W12 (F := Ideal) m ρ c (Proc.devRef .tc main_arg3) = W11 (F := Ideal) m ρ c (Proc.devRef .tc main_arg3) := W12_of_ne m ρ c main_arg3 (by decide)
theorem keepR2_arg9 : W12 (F := Ideal) m ρ c (Proc.devRef .tc main_arg9) = W11 (F := Ideal) m ρ c (Proc.devRef .tc main_arg9) := W12_of_ne m ρ c main_arg9 (by decide)
theorem keepR2_arg10 : W12 (F := Ideal) m ρ c (Proc.devRef .tc main_arg10) = W11 (F := Ideal) m ρ c (Proc.devRef .tc main_arg10) := W12_of_ne m ρ c main_arg10 (by decide)
theorem keepR2_arg11 : W12 (F := Ideal) m ρ c (Proc.devRef .tc main_arg11) = W11 (F := Ideal) m ρ c (Proc.devRef .tc main_arg11) := W12_of_ne m ρ c main_arg11 (by decide)
theorem keepR2_arg12 : W12 (F := Ideal) m ρ c (Proc.devRef .tc main_arg12) = W11 (F := Ideal) m ρ c (Proc.devRef .tc main_arg12) := W12_of_ne m ρ c main_arg12 (by decide)
theorem keepR2_arg13 : W12 (F := Ideal) m ρ c (Proc.devRef .tc main_arg13) = W11 (F := Ideal) m ρ c (Proc.devRef .tc main_arg13) := W12_of_ne m ρ c main_arg13 (by decide)
theorem keepD_arg11 : W13 (F := Ideal) m ρ c (Proc.devRef .tc main_arg11) = W12 (F := Ideal) m ρ c (Proc.devRef .tc main_arg11) := by
  show StableHlo.after hostOps3 (W12 m ρ c) (Proc.devRef .tc main_arg11) = _
  after_results_simp
theorem keepD_arg13 : W13 (F := Ideal) m ρ c (Proc.devRef .tc main_arg13) = W12 (F := Ideal) m ρ c (Proc.devRef .tc main_arg13) := by
  show StableHlo.after hostOps3 (W12 m ρ c) (Proc.devRef .tc main_arg13) = _
  after_results_simp

/-! ## The argument arrays where they are read -/

theorem at4_arg3 : W4 (F := Ideal) m ρ c (Proc.devRef .tc main_arg3) = a3 m c := (keepR0_arg3 m ρ c).trans (keepA_arg3 m ρ c)
theorem at4_arg5 : W4 (F := Ideal) m ρ c (Proc.devRef .tc main_arg5) = a5 m c := (keepR0_arg5 m ρ c).trans (keepA_arg5 m ρ c)
theorem at4_arg6 : W4 (F := Ideal) m ρ c (Proc.devRef .tc main_arg6) = a6 m c := (keepR0_arg6 m ρ c).trans (keepA_arg6 m ρ c)
theorem at4_arg7 : W4 (F := Ideal) m ρ c (Proc.devRef .tc main_arg7) = a7 m c := (keepR0_arg7 m ρ c).trans (keepA_arg7 m ρ c)
theorem at4_arg8 : W4 (F := Ideal) m ρ c (Proc.devRef .tc main_arg8) = a8 m c := (keepR0_arg8 m ρ c).trans (keepA_arg8 m ρ c)
theorem at4_arg9 : W4 (F := Ideal) m ρ c (Proc.devRef .tc main_arg9) = a9 m c := (keepR0_arg9 m ρ c).trans (keepA_arg9 m ρ c)
theorem at4_arg10 : W4 (F := Ideal) m ρ c (Proc.devRef .tc main_arg10) = a10 m c := (keepR0_arg10 m ρ c).trans (keepA_arg10 m ρ c)
theorem at4_arg11 : W4 (F := Ideal) m ρ c (Proc.devRef .tc main_arg11) = a11 m c := (keepR0_arg11 m ρ c).trans (keepA_arg11 m ρ c)
theorem at4_arg12 : W4 (F := Ideal) m ρ c (Proc.devRef .tc main_arg12) = a12 m c := (keepR0_arg12 m ρ c).trans (keepA_arg12 m ρ c)
theorem at4_arg13 : W4 (F := Ideal) m ρ c (Proc.devRef .tc main_arg13) = a13 m c := (keepR0_arg13 m ρ c).trans (keepA_arg13 m ρ c)
theorem at8_arg3 : W8 (F := Ideal) m ρ c (Proc.devRef .tc main_arg3) = a3 m c := (keepR1_arg3 m ρ c).trans ((keepB_arg3 m ρ c).trans (at4_arg3 m ρ c))
theorem at8_arg7 : W8 (F := Ideal) m ρ c (Proc.devRef .tc main_arg7) = a7 m c := (keepR1_arg7 m ρ c).trans ((keepB_arg7 m ρ c).trans (at4_arg7 m ρ c))
theorem at8_arg8 : W8 (F := Ideal) m ρ c (Proc.devRef .tc main_arg8) = a8 m c := (keepR1_arg8 m ρ c).trans ((keepB_arg8 m ρ c).trans (at4_arg8 m ρ c))
theorem at8_arg9 : W8 (F := Ideal) m ρ c (Proc.devRef .tc main_arg9) = a9 m c := (keepR1_arg9 m ρ c).trans ((keepB_arg9 m ρ c).trans (at4_arg9 m ρ c))
theorem at8_arg10 : W8 (F := Ideal) m ρ c (Proc.devRef .tc main_arg10) = a10 m c := (keepR1_arg10 m ρ c).trans ((keepB_arg10 m ρ c).trans (at4_arg10 m ρ c))
theorem at8_arg11 : W8 (F := Ideal) m ρ c (Proc.devRef .tc main_arg11) = a11 m c := (keepR1_arg11 m ρ c).trans ((keepB_arg11 m ρ c).trans (at4_arg11 m ρ c))
theorem at8_arg12 : W8 (F := Ideal) m ρ c (Proc.devRef .tc main_arg12) = a12 m c := (keepR1_arg12 m ρ c).trans ((keepB_arg12 m ρ c).trans (at4_arg12 m ρ c))
theorem at8_arg13 : W8 (F := Ideal) m ρ c (Proc.devRef .tc main_arg13) = a13 m c := (keepR1_arg13 m ρ c).trans ((keepB_arg13 m ρ c).trans (at4_arg13 m ρ c))
theorem at12_arg3 : W12 (F := Ideal) m ρ c (Proc.devRef .tc main_arg3) = a3 m c := (keepR2_arg3 m ρ c).trans ((keepC_arg3 m ρ c).trans (at8_arg3 m ρ c))
theorem at12_arg9 : W12 (F := Ideal) m ρ c (Proc.devRef .tc main_arg9) = a9 m c := (keepR2_arg9 m ρ c).trans ((keepC_arg9 m ρ c).trans (at8_arg9 m ρ c))
theorem at12_arg10 : W12 (F := Ideal) m ρ c (Proc.devRef .tc main_arg10) = a10 m c := (keepR2_arg10 m ρ c).trans ((keepC_arg10 m ρ c).trans (at8_arg10 m ρ c))
theorem at12_arg11 : W12 (F := Ideal) m ρ c (Proc.devRef .tc main_arg11) = a11 m c := (keepR2_arg11 m ρ c).trans ((keepC_arg11 m ρ c).trans (at8_arg11 m ρ c))
theorem at12_arg12 : W12 (F := Ideal) m ρ c (Proc.devRef .tc main_arg12) = a12 m c := (keepR2_arg12 m ρ c).trans ((keepC_arg12 m ρ c).trans (at8_arg12 m ρ c))
theorem at12_arg13 : W12 (F := Ideal) m ρ c (Proc.devRef .tc main_arg13) = a13 m c := (keepR2_arg13 m ρ c).trans ((keepC_arg13 m ρ c).trans (at8_arg13 m ρ c))
theorem at13_arg11 : W13 (F := Ideal) m ρ c (Proc.devRef .tc main_arg11) = a11 m c := (keepD_arg11 m ρ c).trans (at12_arg11 m ρ c)
theorem at13_arg13 : W13 (F := Ideal) m ρ c (Proc.devRef .tc main_arg13) = a13 m c := (keepD_arg13 m ρ c).trans (at12_arg13 m ρ c)

/-! ## Up to the first projection: endpoints, weights, degrees, the edge norm -/

theorem at1_v5 : W1 (F := Ideal) m ρ c (Proc.devRef .tc main_v5) = val_main_v5 (F := Ideal) (a1 m c) := Cert.KernelIdeal.Stretches.src_nodes (W0 (F := Ideal) m ρ c) (a1 m c) rfl
theorem at1_v6 : W1 (F := Ideal) m ρ c (Proc.devRef .tc main_v6) = val_main_v6 (F := Ideal) (a1 m c) := Cert.KernelIdeal.Stretches.dst_nodes (W0 (F := Ideal) m ρ c) (a1 m c) rfl
theorem at1_v8 : W1 (F := Ideal) m ρ c (Proc.devRef .tc main_v8) = val_main_v8 (F := Ideal) (a2 m c) := Cert.KernelIdeal.Stretches.weights (W0 (F := Ideal) m ρ c) (a2 m c) rfl
theorem at1_v13 : W1 (F := Ideal) m ρ c (Proc.devRef .tc main_v13) = val_main_v13 (F := Ideal) (a1 m c) (a2 m c) := Cert.KernelIdeal.Stretches.degree_positive (W0 (F := Ideal) m ρ c) (a1 m c) (a2 m c) rfl rfl
theorem at1_v14 : W1 (F := Ideal) m ρ c (Proc.devRef .tc main_v14) = val_main_v14 (F := Ideal) (a1 m c) (a2 m c) := Cert.KernelIdeal.Stretches.degree_rsqrt (W0 (F := Ideal) m ρ c) (a1 m c) (a2 m c) rfl rfl
theorem at1_cst2 : W1 (F := Ideal) m ρ c (Proc.devRef .tc main_cst_2) = val_main_cst_2 (F := Ideal) := Cert.KernelIdeal.Stretches.zero_scalar (W0 (F := Ideal) m ρ c)
theorem at2_v15 : W2 (F := Ideal) m ρ c (Proc.devRef .tc main_v15) = val_main_v15 (F := Ideal) (a1 m c) (a2 m c) :=
  Cert.KernelIdeal.Stretches.inv_sqrt_degree (W1 (F := Ideal) m ρ c) (a1 m c) (a2 m c) (at1_v13 m ρ c) (at1_v14 m ρ c) (at1_cst2 m ρ c)
theorem at2_v5 : W2 (F := Ideal) m ρ c (Proc.devRef .tc main_v5) = val_main_v5 (F := Ideal) (a1 m c) := (keepA2_v5 m ρ c).trans (at1_v5 m ρ c)
theorem at2_v6 : W2 (F := Ideal) m ρ c (Proc.devRef .tc main_v6) = val_main_v6 (F := Ideal) (a1 m c) := (keepA2_v6 m ρ c).trans (at1_v6 m ρ c)
theorem at2_v8 : W2 (F := Ideal) m ρ c (Proc.devRef .tc main_v8) = val_main_v8 (F := Ideal) (a2 m c) := (keepA2_v8 m ρ c).trans (at1_v8 m ρ c)
theorem at3_v31 : W3 (F := Ideal) m ρ c (Proc.devRef .tc main_v31) = val_main_v31 (F := Ideal) (a1 m c) (a2 m c) :=
  Cert.KernelIdeal.Stretches.edge_norm (W2 (F := Ideal) m ρ c) (a1 m c) (a2 m c) (at2_v5 m ρ c) (at2_v6 m ρ c) (at2_v8 m ρ c) (at2_v15 m ρ c)
theorem at3_v5 : W3 (F := Ideal) m ρ c (Proc.devRef .tc main_v5) = val_main_v5 (F := Ideal) (a1 m c) := (keepA3_v5 m ρ c).trans (at1_v5 m ρ c)
theorem at3_v6 : W3 (F := Ideal) m ρ c (Proc.devRef .tc main_v6) = val_main_v6 (F := Ideal) (a1 m c) := (keepA3_v6 m ρ c).trans (at1_v6 m ρ c)
theorem at3_v32 : (W3 (F := Ideal) m ρ c (Proc.devRef .tc main_v32) : S50000x128.Idx → EReal) = (a0 m c : S50000x128.Idx → EReal) :=
  (Cert.KernelIdeal.Stretches.features_narrow (W2 (F := Ideal) m ρ c)).trans (keepA2_arg0 m ρ c)
theorem at3_v33 : (W3 (F := Ideal) m ρ c (Proc.devRef .tc main_v33) : S128x128.Idx → EReal) = (a4 m c : S128x128.Idx → EReal) :=
  (Cert.KernelIdeal.Stretches.weight1_narrow (W2 (F := Ideal) m ρ c)).trans (keepA2_arg4 m ρ c)

/-! ## The first projection, and the first layer -/

theorem at4_v34 : W4 (F := Ideal) m ρ c (Proc.devRef .tc main_v34) = val_main_v32 (F := Ideal) (a0 m c) (a4 m c) := by
  refine (W4_arr m ρ c 2).trans ((Cert.KernelIdeal.Dense0.result_eq (V3 (F := Ideal) m ρ) c).trans ?_)
  show matProd (m := 50000) (k := 128) (n := 128) (W3 (F := Ideal) m ρ c (Proc.devRef .tc main_v32) : S50000x128.Idx → EReal) (W3 (F := Ideal) m ρ c (Proc.devRef .tc main_v33) : S128x128.Idx → EReal) = _
  rw [at3_v32 m ρ c, at3_v33 m ρ c]
  unfold val_main_v32
  exact (hostDot_eq_matProd Cert.ReferenceIdeal.dot_S50000x128_S128x128_S50000x128_1_0_0_1_n_n.wf none (a0 m c) (a4 m c)).symm
theorem at4_v5 : W4 (F := Ideal) m ρ c (Proc.devRef .tc main_v5) = val_main_v5 (F := Ideal) (a1 m c) := (keepR0_v5 m ρ c).trans (at3_v5 m ρ c)
theorem at4_v6 : W4 (F := Ideal) m ρ c (Proc.devRef .tc main_v6) = val_main_v6 (F := Ideal) (a1 m c) := (keepR0_v6 m ρ c).trans (at3_v6 m ρ c)
theorem at4_v31 : W4 (F := Ideal) m ρ c (Proc.devRef .tc main_v31) = val_main_v31 (F := Ideal) (a1 m c) (a2 m c) := (keepR0_v31 m ρ c).trans (at3_v31 m ρ c)
theorem at5_v50 : W5 (F := Ideal) m ρ c (Proc.devRef .tc main_v50) = val_main_v48 (F := Ideal) (a0 m c) (a1 m c) (a2 m c) (a4 m c) (a5 m c) :=
  Cert.KernelIdeal.Stretches.aggregate1 (W4 (F := Ideal) m ρ c) (a0 m c) (a1 m c) (a2 m c) (a4 m c) (a5 m c) (at4_v5 m ρ c) (at4_v6 m ρ c) (at4_v31 m ρ c) (at4_v34 m ρ c) (at4_arg5 m ρ c)
theorem at6_v51 : W6 (F := Ideal) m ρ c (Proc.devRef .tc main_v51) = val_main_v49 (F := Ideal) (a0 m c) (a1 m c) (a2 m c) (a4 m c) (a5 m c) :=
  Cert.KernelIdeal.Stretches.rectify1 (W5 (F := Ideal) m ρ c) (a0 m c) (a1 m c) (a2 m c) (a4 m c) (a5 m c) (at5_v50 m ρ c)
theorem at7_v52 : (W7 (F := Ideal) m ρ c (Proc.devRef .tc main_v52) : S50000x128.Idx → EReal) = (val_main_v49 (F := Ideal) (a0 m c) (a1 m c) (a2 m c) (a4 m c) (a5 m c) : S50000x128.Idx → EReal) :=
  (Cert.KernelIdeal.Stretches.hidden1_narrow (W6 (F := Ideal) m ρ c)).trans (at6_v51 m ρ c)
theorem at7_v53 : (W7 (F := Ideal) m ρ c (Proc.devRef .tc main_v53) : S128x128.Idx → EReal) = (a6 m c : S128x128.Idx → EReal) :=
  (Cert.KernelIdeal.Stretches.weight2_narrow (W6 (F := Ideal) m ρ c)).trans ((keepB6_arg6 m ρ c).trans (at4_arg6 m ρ c))

/-! ## The second projection, and the second layer -/

theorem at8_v54 : W8 (F := Ideal) m ρ c (Proc.devRef .tc main_v54) = val_main_v78 (F := Ideal) (a0 m c) (a1 m c) (a2 m c) (a4 m c) (a5 m c) (a6 m c) := by
  refine (W8_arr m ρ c 2).trans ((Cert.KernelIdeal.Dense1.result_eq (V7 (F := Ideal) m ρ) c).trans ?_)
  show matProd (m := 50000) (k := 128) (n := 128) (W7 (F := Ideal) m ρ c (Proc.devRef .tc main_v52) : S50000x128.Idx → EReal) (W7 (F := Ideal) m ρ c (Proc.devRef .tc main_v53) : S128x128.Idx → EReal) = _
  rw [at7_v52 m ρ c, at7_v53 m ρ c]
  unfold val_main_v78
  exact (hostDot_eq_matProd Cert.ReferenceIdeal.dot_S50000x128_S128x128_S50000x128_1_0_0_1_n_n.wf none (val_main_v49 (F := Ideal) (a0 m c) (a1 m c) (a2 m c) (a4 m c) (a5 m c)) (a6 m c)).symm
theorem at8_v5' : W8 (F := Ideal) m ρ c (Proc.devRef .tc main_v5) = val_main_v5 (F := Ideal) (a1 m c) := (keepR1_v5 m ρ c).trans ((keepB_v5 m ρ c).trans (at4_v5 m ρ c))
theorem at8_v6' : W8 (F := Ideal) m ρ c (Proc.devRef .tc main_v6) = val_main_v6 (F := Ideal) (a1 m c) := (keepR1_v6 m ρ c).trans ((keepB_v6 m ρ c).trans (at4_v6 m ρ c))
theorem at8_v31' : W8 (F := Ideal) m ρ c (Proc.devRef .tc main_v31) = val_main_v31 (F := Ideal) (a1 m c) (a2 m c) := (keepR1_v31 m ρ c).trans ((keepB_v31 m ρ c).trans (at4_v31 m ρ c))
theorem at8_v5 : W8 (F := Ideal) m ρ c (Proc.devRef .tc main_v5) = val_main_v51 (F := Ideal) (a1 m c) := (at8_v5' m ρ c).trans (Cert.ReferenceIdeal.Layers.src2 (a1 m c)).symm
theorem at8_v6 : W8 (F := Ideal) m ρ c (Proc.devRef .tc main_v6) = val_main_v52 (F := Ideal) (a1 m c) := (at8_v6' m ρ c).trans (Cert.ReferenceIdeal.Layers.dst2 (a1 m c)).symm
theorem at8_v31 : W8 (F := Ideal) m ρ c (Proc.devRef .tc main_v31) = val_main_v77 (F := Ideal) (a1 m c) (a2 m c) := (at8_v31' m ρ c).trans (Cert.ReferenceIdeal.Layers.norm2 (a1 m c) (a2 m c)).symm
theorem at9_v70 : W9 (F := Ideal) m ρ c (Proc.devRef .tc main_v70) = val_main_v94 (F := Ideal) (a0 m c) (a1 m c) (a2 m c) (a4 m c) (a5 m c) (a6 m c) (a7 m c) :=
  Cert.KernelIdeal.Stretches.aggregate2 (W8 (F := Ideal) m ρ c) (a0 m c) (a1 m c) (a2 m c) (a4 m c) (a5 m c) (a6 m c) (a7 m c) (at8_v5 m ρ c) (at8_v6 m ρ c) (at8_v31 m ρ c) (at8_v54 m ρ c) (at8_arg7 m ρ c)
theorem at10_v71 : W10 (F := Ideal) m ρ c (Proc.devRef .tc main_v71) = val_main_v95 (F := Ideal) (a0 m c) (a1 m c) (a2 m c) (a4 m c) (a5 m c) (a6 m c) (a7 m c) :=
  Cert.KernelIdeal.Stretches.rectify2 (W9 (F := Ideal) m ρ c) (a0 m c) (a1 m c) (a2 m c) (a4 m c) (a5 m c) (a6 m c) (a7 m c) (at9_v70 m ρ c)
theorem at11_v72 : (W11 (F := Ideal) m ρ c (Proc.devRef .tc main_v72) : S50000x128.Idx → EReal) = (val_main_v95 (F := Ideal) (a0 m c) (a1 m c) (a2 m c) (a4 m c) (a5 m c) (a6 m c) (a7 m c) : S50000x128.Idx → EReal) :=
  (Cert.KernelIdeal.Stretches.hidden2_narrow (W10 (F := Ideal) m ρ c)).trans (at10_v71 m ρ c)
theorem at11_v73 : (W11 (F := Ideal) m ρ c (Proc.devRef .tc main_v73) : S128x128.Idx → EReal) = (a8 m c : S128x128.Idx → EReal) :=
  (Cert.KernelIdeal.Stretches.weight3_narrow (W10 (F := Ideal) m ρ c)).trans ((keepC10_arg8 m ρ c).trans (at8_arg8 m ρ c))

/-! ## The third projection, the third layer and the mean over each graph -/

theorem at12_v74 : W12 (F := Ideal) m ρ c (Proc.devRef .tc main_v74) = val_main_v124 (F := Ideal) (a0 m c) (a1 m c) (a2 m c) (a4 m c) (a5 m c) (a6 m c) (a7 m c) (a8 m c) := by
  refine (W12_arr m ρ c 2).trans ((Cert.KernelIdeal.Dense2.result_eq (V11 (F := Ideal) m ρ) c).trans ?_)
  show matProd (m := 50000) (k := 128) (n := 128) (W11 (F := Ideal) m ρ c (Proc.devRef .tc main_v72) : S50000x128.Idx → EReal) (W11 (F := Ideal) m ρ c (Proc.devRef .tc main_v73) : S128x128.Idx → EReal) = _
  rw [at11_v72 m ρ c, at11_v73 m ρ c]
  unfold val_main_v124
  exact (hostDot_eq_matProd Cert.ReferenceIdeal.dot_S50000x128_S128x128_S50000x128_1_0_0_1_n_n.wf none (val_main_v95 (F := Ideal) (a0 m c) (a1 m c) (a2 m c) (a4 m c) (a5 m c) (a6 m c) (a7 m c)) (a8 m c)).symm
theorem at12_v5 : W12 (F := Ideal) m ρ c (Proc.devRef .tc main_v5) = val_main_v97 (F := Ideal) (a1 m c) :=
  ((keepR2_v5 m ρ c).trans ((keepC_v5 m ρ c).trans (at8_v5' m ρ c))).trans (Cert.ReferenceIdeal.Layers.src3 (a1 m c)).symm
theorem at12_v6 : W12 (F := Ideal) m ρ c (Proc.devRef .tc main_v6) = val_main_v98 (F := Ideal) (a1 m c) :=
  ((keepR2_v6 m ρ c).trans ((keepC_v6 m ρ c).trans (at8_v6' m ρ c))).trans (Cert.ReferenceIdeal.Layers.dst3 (a1 m c)).symm
theorem at12_v31 : W12 (F := Ideal) m ρ c (Proc.devRef .tc main_v31) = val_main_v123 (F := Ideal) (a1 m c) (a2 m c) :=
  ((keepR2_v31 m ρ c).trans ((keepC_v31 m ρ c).trans (at8_v31' m ρ c))).trans (Cert.ReferenceIdeal.Layers.norm3 (a1 m c) (a2 m c)).symm
theorem at13_v103 : (W13 (F := Ideal) m ρ c (Proc.devRef .tc main_v103) : S256x128.Idx → EReal) = (val_main_v152 (F := Ideal) (a0 m c) (a1 m c) (a2 m c) (a3 m c) (a4 m c) (a5 m c) (a6 m c) (a7 m c) (a8 m c) (a9 m c) : S256x128.Idx → EReal) :=
  Cert.KernelIdeal.Stretches.graph_means_narrow (W12 (F := Ideal) m ρ c) (a0 m c) (a1 m c) (a2 m c) (a3 m c) (a4 m c) (a5 m c) (a6 m c) (a7 m c) (a8 m c) (a9 m c) (at12_v5 m ρ c) (at12_v6 m ρ c) (at12_v31 m ρ c) (at12_v74 m ρ c) (at12_arg9 m ρ c) (at12_arg3 m ρ c)
theorem at13_v104 : (W13 (F := Ideal) m ρ c (Proc.devRef .tc main_v104) : S128x128.Idx → EReal) = (a10 m c : S128x128.Idx → EReal) :=
  (Cert.KernelIdeal.Stretches.classifier_weight1_narrow (W12 (F := Ideal) m ρ c)).trans (at12_arg10 m ρ c)
theorem at13_v105 : (W13 (F := Ideal) m ρ c (Proc.devRef .tc main_v105) : S128x10.Idx → EReal) = (a12 m c : S128x10.Idx → EReal) :=
  (Cert.KernelIdeal.Stretches.classifier_weight2_narrow (W12 (F := Ideal) m ρ c)).trans (at12_arg12 m ρ c)

/-! ## The classifier call: the reference's last two affine layers -/

/-- The kernel program's result array after its run is the reference's result term of the argument arrays. -/
theorem result_value : W14 (F := Ideal) m ρ c (Proc.devRef .tc main_v106) = val_main_v160 (F := Ideal) (a0 m c) (a1 m c) (a2 m c) (a3 m c) (a4 m c) (a5 m c) (a6 m c) (a7 m c) (a8 m c) (a9 m c) (a10 m c) (a11 m c) (a12 m c) (a13 m c) := by
  refine (W14_arr m ρ c 5).trans ((Cert.KernelIdeal.Classifier.result_eq (V13 (F := Ideal) m ρ) c).trans ?_)
  show affine (m := 256) (k := 128) (n := 10) (affine (m := 256) (k := 128) (n := 128) (W13 (F := Ideal) m ρ c (Proc.devRef .tc main_v103) : S256x128.Idx → EReal) (W13 (F := Ideal) m ρ c (Proc.devRef .tc main_v104) : S128x128.Idx → EReal) (W13 (F := Ideal) m ρ c (Proc.devRef .tc main_arg11) : S128.Idx → EReal))
      (W13 (F := Ideal) m ρ c (Proc.devRef .tc main_v105) : S128x10.Idx → EReal) (W13 (F := Ideal) m ρ c (Proc.devRef .tc main_arg13) : S10.Idx → EReal) = _
  rw [at13_v103 m ρ c, at13_v104 m ρ c, at13_v105 m ρ c, at13_arg11 m ρ c, at13_arg13 m ρ c]
  simp only [val_main_v160, val_main_v159, val_main_v158, val_main_v157, val_main_v156, val_main_v155, val_main_v154, val_main_v153]
  exact ((hostAffine_eq Cert.ReferenceIdeal.dot_S256x128_S128x10_S256x10_1_0_0_1_n_n.wf none _ (a12 m c) (a13 m c) _ _).trans
    (congrArg (fun A => affine (m := 256) (k := 128) (n := 10) A (a12 m c) (a13 m c))
      (hostAffine_eq Cert.ReferenceIdeal.dot_S256x128_S128x128_S256x128_1_0_0_1_n_n.wf none (val_main_v152 (F := Ideal) (a0 m c) (a1 m c) (a2 m c) (a3 m c) (a4 m c) (a5 m c) (a6 m c) (a7 m c) (a8 m c) (a9 m c)) (a10 m c) (a11 m c) _ _))).symm

end Cert.KernelIdeal.Chain

end
-- ==== Proof.lean ====
/-
  The proof of `Cert.Claim`: a graph convolution network's forward pass — three layers of "project the node features
  by a dense matrix, gather each edge's source row, scale it by the symmetric edge norm, scatter-add into the target
  node, add a bias" with rectifiers between them, the mean over each graph's nodes, and two affine classifier layers —
  computed by a program that runs the three projections and the classifier as dense calls on the vector unit, against a
  reference that computes everything on the host.

  On the extended reals the two programs apply the same host operations between the same stages; they differ only in
  where the dense products are computed and in changes of float format, which are the identity there. So:
  * each projection call's result array is the row-by-column product of its operand arrays (the call's ten row blocks
    tile the result, block `t` being the product of rows `5000 t …` with the weight), which is the host's product;
  * the classifier call's result is the two affine layers the reference applies on the host;
  * the stretches of host operations in between continue the reference's stages one for one (the reference recomputes
    the edge norm in every layer from the same arrays; the kernel program computes it once and carries it).
  No law that needs finiteness is used: the equality is operation by operation, so the precondition is never opened.
  The ideal pass rewrote nothing, so the sanctioned-idealization claim is trivial.
-/
import proofs.«100255_j21234318311432_1_alg».proof.Defs
import proofs.«100255_j21234318311432_1_alg».proof.Proof.Gen.Kernel
import proofs.«100255_j21234318311432_1_alg».proof.Proof.Gen.Kernel.Frame
import proofs.«100255_j21234318311432_1_alg».proof.Proof.Gen.KernelIdeal
import proofs.«100255_j21234318311432_1_alg».proof.Proof.Gen.KernelIdeal.Frame
import proofs.«100255_j21234318311432_1_alg».proof.Proof.Gen.ReferenceIdeal
import proofs.«100255_j21234318311432_1_alg».proof.Proof.Gen.ReferenceIdeal.Run
import proofs.«100255_j21234318311432_1_alg».proof.Proof.Gen.ReferenceIdeal.Read
import proofs.«100255_j21234318311432_1_alg».proof.Proof.Gen.Pre_finite_inputs
import proofs.«100255_j21234318311432_1_alg».proof.Proof.KernelRun
import proofs.«100255_j21234318311432_1_alg».proof.Proof.KernelValue
import Idealize.ShloMosaic.Adequacy
import Idealize.ShloMosaic.Init

noncomputable section

namespace Cert.Proof

open Idealize.ShloMosaic Idealize.ShloMosaic.TcCoe Idealize.SL.Sem

/-- The printed kernel program runs, and its argument arrays end as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs run, and both result arrays end at the reference's result
    term of the argument arrays. -/
theorem algebraic : Cert.algebraic_KernelIdeal_ReferenceIdeal := by
  intro m ρ m' ρ' _ hagree
  refine ⟨fun c => Cert.KernelIdeal.Gen.W14 (F := Ideal) m ρ c (Proc.devRef .tc Cert.KernelIdeal.main_v106),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v160_eq, e0, e1, e2, e3, e4, e5, e6, e7, e8, e9, e10, e11, e12, e13]
  exact (Cert.KernelIdeal.Chain.result_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
